-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192 : Shape := ⟨1, ![8192]⟩
abbrev S8192x2 : Shape := ⟨2, ![8192, 2]⟩
abbrev S8x2048x2048 : Shape := ⟨3, ![8, 2048, 2048]⟩
abbrev S8x1024x2048 : Shape := ⟨3, ![8, 1024, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x2 : S_.BroadcastsInDim S8192x2 (![] : Fin 0 → Fin S8192x2.rank)
  reducesTo_S8192x2_S_d0_1 : S8192x2.ReducesTo [0, 1] S_
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S8x1024x2048 : S_.BroadcastsInDim S8x1024x2048 (![] : Fin 0 → Fin S8x1024x2048.rank)
  reducesTo_S8x1024x2048_S_d0_1_2 : S8x1024x2048.ReducesTo [0, 1, 2] S_

variable [Facts]

def fn_part1 {F : FTy → Type} [FloatOps F] (main_v13 : IVec S_ 1) (main_v16 : IVec S8x1024x2048 1) : IVec S_ 1 :=
  let main_c_5 : IVec S_ 1 := constantI S_ 1 1#1
  let main_v17 : IVec S_ 1 := (fun x v => Host.reduce IntOp.andi x v reducesTo_S8x1024x2048_S_d0_1_2 h_S_) main_v16 main_c_5
  let main_v18 : IVec S_ 1 := andi main_v13 main_v17
  main_v18

def fn {F : FTy → Type} [FloatOps F] (main_arg0 : FVec F S8192x2048 .f32) (main_arg1 : IVec S8192 1) (main_arg2 : FVec F S8192x2 .f32) (main_arg3 : IVec S8192x2 32) (main_arg4 : FVec F S8x2048x2048 .f32) (main_arg5 : FVec F S8x1024x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2 .f32 := Host.absf main_arg2
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  let main_v9 : FVec F S8x2048x2048 .f32 := Host.absf main_arg4
  let main_cst_2 : FVec F S_ .f32 := constant S_ .f32 0x7F800000#32
  let main_v10 : FVec F S8x2048x2048 .f32 := broadcastInDim S8x2048x2048 ![] bcast_S_S8x2048x2048 main_cst_2
  let main_v11 : IVec S8x2048x2048 1 := cmpf .olt main_v9 main_v10
  let main_c_3 : IVec S_ 1 := constantI S_ 1 1#1
  let main_v12 : IVec S_ 1 := (fun x v => Host.reduce IntOp.andi x v reducesTo_S8x2048x2048_S_d0_1_2 h_S_) main_v11 main_c_3
  let main_v13 : IVec S_ 1 := andi main_v8 main_v12
  let main_v14 : FVec F S8x1024x2048 .f32 := Host.absf main_arg5
  let main_cst_4 : FVec F S_ .f32 := constant S_ .f32 0x7F800000#32
  let main_v15 : FVec F S8x1024x2048 .f32 := broadcastInDim S8x1024x2048 ![] bcast_S_S8x1024x2048 main_cst_4
  let main_v16 : IVec S8x1024x2048 1 := cmpf .olt main_v14 main_v15
  fn_part1 (F := F) main_v13 main_v16
-- ==== Kernel.lean ====
abbrev S8192x2048 : Shape := ⟨2, ![8192, 2048]⟩
abbrev S8192 : Shape := ⟨1, ![8192]⟩
abbrev S8192x2 : Shape := ⟨2, ![8192, 2]⟩
abbrev S8x2048x2048 : Shape := ⟨3, ![8, 2048, 2048]⟩
abbrev S8x1024x2048 : Shape := ⟨3, ![8, 1024, 2048]⟩
abbrev S8192x1 : Shape := ⟨2, ![8192, 1]⟩
abbrev S_ : Shape := ⟨0, ![]⟩
abbrev S8x2048x1024 : Shape := ⟨3, ![8, 2048, 1024]⟩
abbrev S512x2048 : Shape := ⟨2, ![512, 2048]⟩
abbrev S512x2 : Shape := ⟨2, ![512, 2]⟩
abbrev S1x2048x512 : Shape := ⟨3, ![1, 2048, 512]⟩
abbrev S1x512x2048 : Shape := ⟨3, ![1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 19
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192, .i1⟩
  | .hbm, ⟨2, _⟩ => ⟨S8192x2, .f32⟩
  | .hbm, ⟨3, _⟩ => ⟨S8192x2, .i32⟩
  | .hbm, ⟨4, _⟩ => ⟨S8x2048x2048, .f32⟩
  | .hbm, ⟨5, _⟩ => ⟨S8x1024x2048, .f32⟩
  | .hbm, ⟨6, _⟩ => ⟨S8192x1, .i1⟩
  | .hbm, ⟨7, _⟩ => ⟨S_, .i32⟩
  | .hbm, ⟨8, _⟩ => ⟨S_, .i32⟩
  | .hbm, ⟨9, _⟩ => ⟨S8192x2, .i1⟩
  | .hbm, ⟨10, _⟩ => ⟨S8192x2, .i32⟩
  | .hbm, ⟨11, _⟩ => ⟨S8192x2, .i32⟩
  | .hbm, ⟨12, _⟩ => ⟨S8192x2048, .bf16⟩
  | .hbm, ⟨13, _⟩ => ⟨S8x2048x1024, .f32⟩
  | .hbm, ⟨14, _⟩ => ⟨S8x2048x1024, .bf16⟩
  | .hbm, ⟨15, _⟩ => ⟨S8x2048x1024, .f32⟩
  | .hbm, ⟨16, _⟩ => ⟨S8x2048x1024, .bf16⟩
  | .hbm, ⟨17, _⟩ => ⟨S8x1024x2048, .bf16⟩
  | .hbm, ⟨18, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2, .i32⟩
  | .local _ .vmem, ⟨3, _⟩ => ⟨S512x2, .i32⟩
  | .local _ .vmem, ⟨4, _⟩ => ⟨S512x2, .f32⟩
  | .local _ .vmem, ⟨5, _⟩ => ⟨S512x2, .f32⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x512x2048, .bf16⟩
  | .local _ .vmem, ⟨11, _⟩ => ⟨S1x512x2048, .bf16⟩
  | .local _ .vmem, ⟨12, _⟩ => ⟨S512x2048, .f32⟩
  | .local _ .vmem, ⟨13, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 8, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

class Facts₀ : Prop where
  bcast_S8192_S8192x1_0 : S8192.BroadcastsInDim S8192x1 (![0] : Fin 1 → Fin S8192x1.rank)
  bcast_S8192x1_S8192x2_0_1 : S8192x1.BroadcastsInDim S8192x2 (![0, 1] : Fin 2 → Fin S8192x2.rank)
  bcast_S_S8192x2 : S_.BroadcastsInDim S8192x2 (![] : Fin 0 → Fin S8192x2.rank)
  bitsLt_bf16_f32 : FTy.bits .bf16 < FTy.bits .f32
  slices_S8x2048x2048_S8x2048x1024_0_0_0 : S8x2048x2048.Slices ![0, 0, 0] S8x2048x1024
  slices_S8x2048x2048_S8x2048x1024_0_0_1024 : S8x2048x2048.Slices ![0, 0, 1024] S8x2048x1024
  inb_S512x2048_S512x2048_0_0 : ∀ a, (![0, 0] : Fin 2 → Nat) a + S512x2048.size a ≤ S512x2048.size a
  h_S512x2048 : 0 < S512x2048.numel
  inb_S512x2_S512x2_0_0 : ∀ a, (![0, 0] : Fin 2 → Nat) a + S512x2.size a ≤ S512x2.size a
  h_S512x2 : 0 < S512x2.numel
  shapeCasts_S512x2_S512x2 : S512x2.ShapeCasts S512x2
  reduces_S512x2_S512 : S512x2.Reduces [1] S512
  shapeCasts_S512_S512x1 : S512.ShapeCasts S512x1
  shapeCasts_S512x2048_S512x2048 : S512x2048.ShapeCasts S512x2048
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  broadcasts_S512x1_S512x512 : S512x1.Broadcasts S512x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  dot_S512x2048_S2048x512_S512x512_1_0_0_1_n_n_wf : DotDims.WF S512x2048 S2048x512 S512x512 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2.size a ≤ S8192x2.size a
  hwx0_1 : ∀ i : grid0.Coords, EltTy.bits .i32 = 32 ∨ (Rect.block (s := S8192x2) S512x2.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2.size a ≤ S8192x2.size a
  hwx0_2 : ∀ i : grid0.Coords, EltTy.bits .f32 = 32 ∨ (Rect.block (s := S8192x2) S512x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S8x2048x1024.size a
  hwx0_3 : ∀ i : grid0.Coords, EltTy.bits .bf16 = 32 ∨ (Rect.block (s := S8x2048x1024) S1x2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x512.size a ≤ S8x2048x1024.size a
  hwx0_4 : ∀ i : grid0.Coords, EltTy.bits .bf16 = 32 ∨ (Rect.block (s := S8x2048x1024) S1x2048x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S8x1024x2048.size a
  hwx0_5 : ∀ i : grid0.Coords, EltTy.bits .bf16 = 32 ∨ (Rect.block (s := S8x1024x2048) S1x512x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S8192x2048.size a
  hwx0_6 : ∀ i : grid0.Coords, EltTy.bits .f32 = 32 ∨ (Rect.block (s := S8192x2048) S512x2048.size (cc0_transform_6 i) (hinb0_6 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v2) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x2048x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x512x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8192 : Shape := ⟨1, ![8192]⟩
abbrev S8192x2 : Shape := ⟨2, ![8192, 2]⟩
abbrev S8x2048x2048 : Shape := ⟨3, ![8, 2048, 2048]⟩
abbrev S8x1024x2048 : Shape := ⟨3, ![8, 1024, 2048]⟩
abbrev S8192x1 : Shape := ⟨2, ![8192, 1]⟩
abbrev S_ : Shape := ⟨0, ![]⟩
abbrev S1x2048x2048 : Shape := ⟨3, ![1, 2048, 2048]⟩
abbrev S2048x2048 : Shape := ⟨2, ![2048, 2048]⟩
abbrev S8192x1024 : Shape := ⟨2, ![8192, 1024]⟩
abbrev S1x1024x2048 : Shape := ⟨3, ![1, 1024, 2048]⟩
abbrev S1024x2048 : Shape := ⟨2, ![1024, 2048]⟩

abbrev nBuf : Space → Nat
  | .hbm => 262
  | .vmem => 0
  | .smem => 0
  | _ => 0

abbrev hbmTy0_0 (i : Nat) : BufTy := match i % 128 with
  | 0 => ⟨S8192x2048, .f32⟩
  | 1 => ⟨S8192, .i1⟩
  | 2 => ⟨S8192x2, .f32⟩
  | 3 => ⟨S8192x2, .i32⟩
  | 4 => ⟨S8x2048x2048, .f32⟩
  | 5 => ⟨S8x1024x2048, .f32⟩
  | 6 => ⟨S8192x1, .i1⟩
  | 7 => ⟨S_, .i32⟩
  | 8 => ⟨S_, .i32⟩
  | 9 => ⟨S8192x2, .i1⟩
  | 10 => ⟨S8192x2, .i32⟩
  | 11 => ⟨S8192x2, .i32⟩
  | 12 => ⟨S_, .f32⟩
  | 13 => ⟨S8192x2048, .f32⟩
  | 14 => ⟨S_, .i32⟩
  | 15 => ⟨S8192x2, .i32⟩
  | 16 => ⟨S8192x2, .i1⟩
  | 17 => ⟨S_, .f32⟩
  | 18 => ⟨S_, .f32⟩
  | 19 => ⟨S8192x2, .f32⟩
  | 20 => ⟨S8192x2, .f32⟩
  | 21 => ⟨S_, .f32⟩
  | 22 => ⟨S8192, .f32⟩
  | 23 => ⟨S1x2048x2048, .f32⟩
  | 24 => ⟨S2048x2048, .f32⟩
  | 25 => ⟨S8192x2048, .f32⟩
  | 26 => ⟨S8192x1024, .f32⟩
  | 27 => ⟨S8192x1024, .f32⟩
  | 28 => ⟨S8192x1024, .f32⟩
  | 29 => ⟨S8192x1024, .f32⟩
  | 30 => ⟨S_, .f32⟩
  | 31 => ⟨S8192x1024, .f32⟩
  | 32 => ⟨S8192x1024, .f32⟩
  | 33 => ⟨S_, .f32⟩
  | 34 => ⟨S8192x1024, .f32⟩
  | 35 => ⟨S8192x1024, .f32⟩
  | 36 => ⟨S8192x1024, .f32⟩
  | 37 => ⟨S8192x1024, .f32⟩
  | 38 => ⟨S8192x1, .f32⟩
  | 39 => ⟨S8192x1024, .f32⟩
  | 40 => ⟨S8192x1024, .f32⟩
  | 41 => ⟨S1x1024x2048, .f32⟩
  | 42 => ⟨S1024x2048, .f32⟩
  | 43 => ⟨S8192x2048, .f32⟩
  | 44 => ⟨S8192x2048, .f32⟩
  | 45 => ⟨S_, .i32⟩
  | 46 => ⟨S8192x2, .i32⟩
  | 47 => ⟨S8192x2, .i1⟩
  | 48 => ⟨S_, .f32⟩
  | 49 => ⟨S_, .f32⟩
  | 50 => ⟨S8192x2, .f32⟩
  | 51 => ⟨S8192x2, .f32⟩
  | 52 => ⟨S_, .f32⟩
  | 53 => ⟨S8192, .f32⟩
  | 54 => ⟨S1x2048x2048, .f32⟩
  | 55 => ⟨S2048x2048, .f32⟩
  | 56 => ⟨S8192x2048, .f32⟩
  | 57 => ⟨S8192x1024, .f32⟩
  | 58 => ⟨S8192x1024, .f32⟩
  | 59 => ⟨S8192x1024, .f32⟩
  | 60 => ⟨S8192x1024, .f32⟩
  | 61 => ⟨S_, .f32⟩
  | 62 => ⟨S8192x1024, .f32⟩
  | 63 => ⟨S8192x1024, .f32⟩
  | 64 => ⟨S_, .f32⟩
  | 65 => ⟨S8192x1024, .f32⟩
  | 66 => ⟨S8192x1024, .f32⟩
  | 67 => ⟨S8192x1024, .f32⟩
  | 68 => ⟨S8192x1024, .f32⟩
  | 69 => ⟨S8192x1, .f32⟩
  | 70 => ⟨S8192x1024, .f32⟩
  | 71 => ⟨S8192x1024, .f32⟩
  | 72 => ⟨S1x1024x2048, .f32⟩
  | 73 => ⟨S1024x2048, .f32⟩
  | 74 => ⟨S8192x2048, .f32⟩
  | 75 => ⟨S8192x2048, .f32⟩
  | 76 => ⟨S_, .i32⟩
  | 77 => ⟨S8192x2, .i32⟩
  | 78 => ⟨S8192x2, .i1⟩
  | 79 => ⟨S_, .f32⟩
  | 80 => ⟨S_, .f32⟩
  | 81 => ⟨S8192x2, .f32⟩
  | 82 => ⟨S8192x2, .f32⟩
  | 83 => ⟨S_, .f32⟩
  | 84 => ⟨S8192, .f32⟩
  | 85 => ⟨S1x2048x2048, .f32⟩
  | 86 => ⟨S2048x2048, .f32⟩
  | 87 => ⟨S8192x2048, .f32⟩
  | 88 => ⟨S8192x1024, .f32⟩
  | 89 => ⟨S8192x1024, .f32⟩
  | 90 => ⟨S8192x1024, .f32⟩
  | 91 => ⟨S8192x1024, .f32⟩
  | 92 => ⟨S_, .f32⟩
  | 93 => ⟨S8192x1024, .f32⟩
  | 94 => ⟨S8192x1024, .f32⟩
  | 95 => ⟨S_, .f32⟩
  | 96 => ⟨S8192x1024, .f32⟩
  | 97 => ⟨S8192x1024, .f32⟩
  | 98 => ⟨S8192x1024, .f32⟩
  | 99 => ⟨S8192x1024, .f32⟩
  | 100 => ⟨S8192x1, .f32⟩
  | 101 => ⟨S8192x1024, .f32⟩
  | 102 => ⟨S8192x1024, .f32⟩
  | 103 => ⟨S1x1024x2048, .f32⟩
  | 104 => ⟨S1024x2048, .f32⟩
  | 105 => ⟨S8192x2048, .f32⟩
  | 106 => ⟨S8192x2048, .f32⟩
  | 107 => ⟨S_, .i32⟩
  | 108 => ⟨S8192x2, .i32⟩
  | 109 => ⟨S8192x2, .i1⟩
  | 110 => ⟨S_, .f32⟩
  | 111 => ⟨S_, .f32⟩
  | 112 => ⟨S8192x2, .f32⟩
  | 113 => ⟨S8192x2, .f32⟩
  | 114 => ⟨S_, .f32⟩
  | 115 => ⟨S8192, .f32⟩
  | 116 => ⟨S1x2048x2048, .f32⟩
  | 117 => ⟨S2048x2048, .f32⟩
  | 118 => ⟨S8192x2048, .f32⟩
  | 119 => ⟨S8192x1024, .f32⟩
  | 120 => ⟨S8192x1024, .f32⟩
  | 121 => ⟨S8192x1024, .f32⟩
  | 122 => ⟨S8192x1024, .f32⟩
  | 123 => ⟨S_, .f32⟩
  | 124 => ⟨S8192x1024, .f32⟩
  | 125 => ⟨S8192x1024, .f32⟩
  | 126 => ⟨S_, .f32⟩
  | 127 => ⟨S8192x1024, .f32⟩
  | _ => ⟨S8192x2048, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1, .f32⟩
  | 4 => ⟨S8192x1024, .f32⟩
  | 5 => ⟨S8192x1024, .f32⟩
  | 6 => ⟨S1x1024x2048, .f32⟩
  | 7 => ⟨S1024x2048, .f32⟩
  | 8 => ⟨S8192x2048, .f32⟩
  | 9 => ⟨S8192x2048, .f32⟩
  | 10 => ⟨S_, .i32⟩
  | 11 => ⟨S8192x2, .i32⟩
  | 12 => ⟨S8192x2, .i1⟩
  | 13 => ⟨S_, .f32⟩
  | 14 => ⟨S_, .f32⟩
  | 15 => ⟨S8192x2, .f32⟩
  | 16 => ⟨S8192x2, .f32⟩
  | 17 => ⟨S_, .f32⟩
  | 18 => ⟨S8192, .f32⟩
  | 19 => ⟨S1x2048x2048, .f32⟩
  | 20 => ⟨S2048x2048, .f32⟩
  | 21 => ⟨S8192x2048, .f32⟩
  | 22 => ⟨S8192x1024, .f32⟩
  | 23 => ⟨S8192x1024, .f32⟩
  | 24 => ⟨S8192x1024, .f32⟩
  | 25 => ⟨S8192x1024, .f32⟩
  | 26 => ⟨S_, .f32⟩
  | 27 => ⟨S8192x1024, .f32⟩
  | 28 => ⟨S8192x1024, .f32⟩
  | 29 => ⟨S_, .f32⟩
  | 30 => ⟨S8192x1024, .f32⟩
  | 31 => ⟨S8192x1024, .f32⟩
  | 32 => ⟨S8192x1024, .f32⟩
  | 33 => ⟨S8192x1024, .f32⟩
  | 34 => ⟨S8192x1, .f32⟩
  | 35 => ⟨S8192x1024, .f32⟩
  | 36 => ⟨S8192x1024, .f32⟩
  | 37 => ⟨S1x1024x2048, .f32⟩
  | 38 => ⟨S1024x2048, .f32⟩
  | 39 => ⟨S8192x2048, .f32⟩
  | 40 => ⟨S8192x2048, .f32⟩
  | 41 => ⟨S_, .i32⟩
  | 42 => ⟨S8192x2, .i32⟩
  | 43 => ⟨S8192x2, .i1⟩
  | 44 => ⟨S_, .f32⟩
  | 45 => ⟨S_, .f32⟩
  | 46 => ⟨S8192x2, .f32⟩
  | 47 => ⟨S8192x2, .f32⟩
  | 48 => ⟨S_, .f32⟩
  | 49 => ⟨S8192, .f32⟩
  | 50 => ⟨S1x2048x2048, .f32⟩
  | 51 => ⟨S2048x2048, .f32⟩
  | 52 => ⟨S8192x2048, .f32⟩
  | 53 => ⟨S8192x1024, .f32⟩
  | 54 => ⟨S8192x1024, .f32⟩
  | 55 => ⟨S8192x1024, .f32⟩
  | 56 => ⟨S8192x1024, .f32⟩
  | 57 => ⟨S_, .f32⟩
  | 58 => ⟨S8192x1024, .f32⟩
  | 59 => ⟨S8192x1024, .f32⟩
  | 60 => ⟨S_, .f32⟩
  | 61 => ⟨S8192x1024, .f32⟩
  | 62 => ⟨S8192x1024, .f32⟩
  | 63 => ⟨S8192x1024, .f32⟩
  | 64 => ⟨S8192x1024, .f32⟩
  | 65 => ⟨S8192x1, .f32⟩
  | 66 => ⟨S8192x1024, .f32⟩
  | 67 => ⟨S8192x1024, .f32⟩
  | 68 => ⟨S1x1024x2048, .f32⟩
  | 69 => ⟨S1024x2048, .f32⟩
  | 70 => ⟨S8192x2048, .f32⟩
  | 71 => ⟨S8192x2048, .f32⟩
  | 72 => ⟨S_, .i32⟩
  | 73 => ⟨S8192x2, .i32⟩
  | 74 => ⟨S8192x2, .i1⟩
  | 75 => ⟨S_, .f32⟩
  | 76 => ⟨S_, .f32⟩
  | 77 => ⟨S8192x2, .f32⟩
  | 78 => ⟨S8192x2, .f32⟩
  | 79 => ⟨S_, .f32⟩
  | 80 => ⟨S8192, .f32⟩
  | 81 => ⟨S1x2048x2048, .f32⟩
  | 82 => ⟨S2048x2048, .f32⟩
  | 83 => ⟨S8192x2048, .f32⟩
  | 84 => ⟨S8192x1024, .f32⟩
  | 85 => ⟨S8192x1024, .f32⟩
  | 86 => ⟨S8192x1024, .f32⟩
  | 87 => ⟨S8192x1024, .f32⟩
  | 88 => ⟨S_, .f32⟩
  | 89 => ⟨S8192x1024, .f32⟩
  | 90 => ⟨S8192x1024, .f32⟩
  | 91 => ⟨S_, .f32⟩
  | 92 => ⟨S8192x1024, .f32⟩
  | 93 => ⟨S8192x1024, .f32⟩
  | 94 => ⟨S8192x1024, .f32⟩
  | 95 => ⟨S8192x1024, .f32⟩
  | 96 => ⟨S8192x1, .f32⟩
  | 97 => ⟨S8192x1024, .f32⟩
  | 98 => ⟨S8192x1024, .f32⟩
  | 99 => ⟨S1x1024x2048, .f32⟩
  | 100 => ⟨S1024x2048, .f32⟩
  | 101 => ⟨S8192x2048, .f32⟩
  | 102 => ⟨S8192x2048, .f32⟩
  | 103 => ⟨S_, .i32⟩
  | 104 => ⟨S8192x2, .i32⟩
  | 105 => ⟨S8192x2, .i1⟩
  | 106 => ⟨S_, .f32⟩
  | 107 => ⟨S_, .f32⟩
  | 108 => ⟨S8192x2, .f32⟩
  | 109 => ⟨S8192x2, .f32⟩
  | 110 => ⟨S_, .f32⟩
  | 111 => ⟨S8192, .f32⟩
  | 112 => ⟨S1x2048x2048, .f32⟩
  | 113 => ⟨S2048x2048, .f32⟩
  | 114 => ⟨S8192x2048, .f32⟩
  | 115 => ⟨S8192x1024, .f32⟩
  | 116 => ⟨S8192x1024, .f32⟩
  | 117 => ⟨S8192x1024, .f32⟩
  | 118 => ⟨S8192x1024, .f32⟩
  | 119 => ⟨S_, .f32⟩
  | 120 => ⟨S8192x1024, .f32⟩
  | 121 => ⟨S8192x1024, .f32⟩
  | 122 => ⟨S_, .f32⟩
  | 123 => ⟨S8192x1024, .f32⟩
  | 124 => ⟨S8192x1024, .f32⟩
  | 125 => ⟨S8192x1024, .f32⟩
  | 126 => ⟨S8192x1024, .f32⟩
  | 127 => ⟨S8192x1, .f32⟩
  | _ => ⟨S8192x2048, .f32⟩

abbrev hbmTy0_2 (i : Nat) : BufTy := match i % 128 with
  | 0 => ⟨S8192x1024, .f32⟩
  | 1 => ⟨S8192x1024, .f32⟩
  | 2 => ⟨S1x1024x2048, .f32⟩
  | 3 => ⟨S1024x2048, .f32⟩
  | 4 => ⟨S8192x2048, .f32⟩
  | 5 => ⟨S8192x2048, .f32⟩
  | _ => ⟨S8192x2048, .f32⟩

abbrev hbmTy (i : Nat) : BufTy := match i / 128 with
  | 0 => hbmTy0_0 i
  | 1 => hbmTy0_1 i
  | 2 => hbmTy0_2 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_call1_v0 : Ref sig .tc := ⟨.hbm, 18, rfl⟩
abbrev main_call1_v1 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call2_v0 : Ref sig .tc := ⟨.hbm, 28, rfl⟩
abbrev main_call2_v1 : Ref sig .tc := ⟨.hbm, 29, rfl⟩
abbrev main_call2_cst : Ref sig .tc := ⟨.hbm, 30, rfl⟩
abbrev main_call2_v2 : Ref sig .tc := ⟨.hbm, 31, rfl⟩
abbrev main_call2_v3 : Ref sig .tc := ⟨.hbm, 32, rfl⟩
abbrev main_call2_cst_0 : Ref sig .tc := ⟨.hbm, 33, rfl⟩
abbrev main_call2_v4 : Ref sig .tc := ⟨.hbm, 34, rfl⟩
abbrev main_call2_v5 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_3 : Ref sig .tc := ⟨.hbm, 45, rfl⟩
abbrev main_v21 : Ref sig .tc := ⟨.hbm, 46, rfl⟩
abbrev main_v22 : Ref sig .tc := ⟨.hbm, 47, rfl⟩
abbrev main_cst_4 : Ref sig .tc := ⟨.hbm, 48, rfl⟩
abbrev main_call3_v0 : Ref sig .tc := ⟨.hbm, 49, rfl⟩
abbrev main_call3_v1 : Ref sig .tc := ⟨.hbm, 50, rfl⟩
abbrev main_v23 : Ref sig .tc := ⟨.hbm, 51, rfl⟩
abbrev main_cst_5 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_call4_v0 : Ref sig .tc := ⟨.hbm, 59, rfl⟩
abbrev main_call4_v1 : Ref sig .tc := ⟨.hbm, 60, rfl⟩
abbrev main_call4_cst : Ref sig .tc := ⟨.hbm, 61, rfl⟩
abbrev main_call4_v2 : Ref sig .tc := ⟨.hbm, 62, rfl⟩
abbrev main_call4_v3 : Ref sig .tc := ⟨.hbm, 63, rfl⟩
abbrev main_call4_cst_0 : Ref sig .tc := ⟨.hbm, 64, rfl⟩
abbrev main_call4_v4 : Ref sig .tc := ⟨.hbm, 65, rfl⟩
abbrev main_call4_v5 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_c_6 : Ref sig .tc := ⟨.hbm, 76, rfl⟩
abbrev main_v39 : Ref sig .tc := ⟨.hbm, 77, rfl⟩
abbrev main_v40 : Ref sig .tc := ⟨.hbm, 78, rfl⟩
abbrev main_cst_7 : Ref sig .tc := ⟨.hbm, 79, rfl⟩
abbrev main_call5_v0 : Ref sig .tc := ⟨.hbm, 80, rfl⟩
abbrev main_call5_v1 : Ref sig .tc := ⟨.hbm, 81, rfl⟩
abbrev main_v41 : Ref sig .tc := ⟨.hbm, 82, rfl⟩
abbrev main_cst_8 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_call6_v0 : Ref sig .tc := ⟨.hbm, 90, rfl⟩
abbrev main_call6_v1 : Ref sig .tc := ⟨.hbm, 91, rfl⟩
abbrev main_call6_cst : Ref sig .tc := ⟨.hbm, 92, rfl⟩
abbrev main_call6_v2 : Ref sig .tc := ⟨.hbm, 93, rfl⟩
abbrev main_call6_v3 : Ref sig .tc := ⟨.hbm, 94, rfl⟩
abbrev main_call6_cst_0 : Ref sig .tc := ⟨.hbm, 95, rfl⟩
abbrev main_call6_v4 : Ref sig .tc := ⟨.hbm, 96, rfl⟩
abbrev main_call6_v5 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_c_9 : Ref sig .tc := ⟨.hbm, 107, rfl⟩
abbrev main_v57 : Ref sig .tc := ⟨.hbm, 108, rfl⟩
abbrev main_v58 : Ref sig .tc := ⟨.hbm, 109, rfl⟩
abbrev main_cst_10 : Ref sig .tc := ⟨.hbm, 110, rfl⟩
abbrev main_call7_v0 : Ref sig .tc := ⟨.hbm, 111, rfl⟩
abbrev main_call7_v1 : Ref sig .tc := ⟨.hbm, 112, rfl⟩
abbrev main_v59 : Ref sig .tc := ⟨.hbm, 113, rfl⟩
abbrev main_cst_11 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_call8_v0 : Ref sig .tc := ⟨.hbm, 121, rfl⟩
abbrev main_call8_v1 : Ref sig .tc := ⟨.hbm, 122, rfl⟩
abbrev main_call8_cst : Ref sig .tc := ⟨.hbm, 123, rfl⟩
abbrev main_call8_v2 : Ref sig .tc := ⟨.hbm, 124, rfl⟩
abbrev main_call8_v3 : Ref sig .tc := ⟨.hbm, 125, rfl⟩
abbrev main_call8_cst_0 : Ref sig .tc := ⟨.hbm, 126, rfl⟩
abbrev main_call8_v4 : Ref sig .tc := ⟨.hbm, 127, rfl⟩
abbrev main_call8_v5 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_c_12 : Ref sig .tc := ⟨.hbm, 138, rfl⟩
abbrev main_v75 : Ref sig .tc := ⟨.hbm, 139, rfl⟩
abbrev main_v76 : Ref sig .tc := ⟨.hbm, 140, rfl⟩
abbrev main_cst_13 : Ref sig .tc := ⟨.hbm, 141, rfl⟩
abbrev main_call9_v0 : Ref sig .tc := ⟨.hbm, 142, rfl⟩
abbrev main_call9_v1 : Ref sig .tc := ⟨.hbm, 143, rfl⟩
abbrev main_v77 : Ref sig .tc := ⟨.hbm, 144, rfl⟩
abbrev main_cst_14 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_call10_v0 : Ref sig .tc := ⟨.hbm, 152, rfl⟩
abbrev main_call10_v1 : Ref sig .tc := ⟨.hbm, 153, rfl⟩
abbrev main_call10_cst : Ref sig .tc := ⟨.hbm, 154, rfl⟩
abbrev main_call10_v2 : Ref sig .tc := ⟨.hbm, 155, rfl⟩
abbrev main_call10_v3 : Ref sig .tc := ⟨.hbm, 156, rfl⟩
abbrev main_call10_cst_0 : Ref sig .tc := ⟨.hbm, 157, rfl⟩
abbrev main_call10_v4 : Ref sig .tc := ⟨.hbm, 158, rfl⟩
abbrev main_call10_v5 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_c_15 : Ref sig .tc := ⟨.hbm, 169, rfl⟩
abbrev main_v93 : Ref sig .tc := ⟨.hbm, 170, rfl⟩
abbrev main_v94 : Ref sig .tc := ⟨.hbm, 171, rfl⟩
abbrev main_cst_16 : Ref sig .tc := ⟨.hbm, 172, rfl⟩
abbrev main_call11_v0 : Ref sig .tc := ⟨.hbm, 173, rfl⟩
abbrev main_call11_v1 : Ref sig .tc := ⟨.hbm, 174, rfl⟩
abbrev main_v95 : Ref sig .tc := ⟨.hbm, 175, rfl⟩
abbrev main_cst_17 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_call12_v0 : Ref sig .tc := ⟨.hbm, 183, rfl⟩
abbrev main_call12_v1 : Ref sig .tc := ⟨.hbm, 184, rfl⟩
abbrev main_call12_cst : Ref sig .tc := ⟨.hbm, 185, rfl⟩
abbrev main_call12_v2 : Ref sig .tc := ⟨.hbm, 186, rfl⟩
abbrev main_call12_v3 : Ref sig .tc := ⟨.hbm, 187, rfl⟩
abbrev main_call12_cst_0 : Ref sig .tc := ⟨.hbm, 188, rfl⟩
abbrev main_call12_v4 : Ref sig .tc := ⟨.hbm, 189, rfl⟩
abbrev main_call12_v5 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_c_18 : Ref sig .tc := ⟨.hbm, 200, rfl⟩
abbrev main_v111 : Ref sig .tc := ⟨.hbm, 201, rfl⟩
abbrev main_v112 : Ref sig .tc := ⟨.hbm, 202, rfl⟩
abbrev main_cst_19 : Ref sig .tc := ⟨.hbm, 203, rfl⟩
abbrev main_call13_v0 : Ref sig .tc := ⟨.hbm, 204, rfl⟩
abbrev main_call13_v1 : Ref sig .tc := ⟨.hbm, 205, rfl⟩
abbrev main_v113 : Ref sig .tc := ⟨.hbm, 206, rfl⟩
abbrev main_cst_20 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_call14_v0 : Ref sig .tc := ⟨.hbm, 214, rfl⟩
abbrev main_call14_v1 : Ref sig .tc := ⟨.hbm, 215, rfl⟩
abbrev main_call14_cst : Ref sig .tc := ⟨.hbm, 216, rfl⟩
abbrev main_call14_v2 : Ref sig .tc := ⟨.hbm, 217, rfl⟩
abbrev main_call14_v3 : Ref sig .tc := ⟨.hbm, 218, rfl⟩
abbrev main_call14_cst_0 : Ref sig .tc := ⟨.hbm, 219, rfl⟩
abbrev main_call14_v4 : Ref sig .tc := ⟨.hbm, 220, rfl⟩
abbrev main_call14_v5 : Ref sig .tc := ⟨.hbm, 221, rfl⟩
abbrev main_v120 : Ref sig .tc := ⟨.hbm, 222, rfl⟩
abbrev main_v121 : Ref sig .tc := ⟨.hbm, 223, rfl⟩
abbrev main_v122 : Ref sig .tc := ⟨.hbm, 224, rfl⟩
abbrev main_v123 : Ref sig .tc := ⟨.hbm, 225, rfl⟩
abbrev main_v124 : Ref sig .tc := ⟨.hbm, 226, rfl⟩
abbrev main_v125 : Ref sig .tc := ⟨.hbm, 227, rfl⟩
abbrev main_v126 : Ref sig .tc := ⟨.hbm, 228, rfl⟩
abbrev main_v127 : Ref sig .tc := ⟨.hbm, 229, rfl⟩
abbrev main_v128 : Ref sig .tc := ⟨.hbm, 230, rfl⟩
abbrev main_c_21 : Ref sig .tc := ⟨.hbm, 231, rfl⟩
abbrev main_v129 : Ref sig .tc := ⟨.hbm, 232, rfl⟩
abbrev main_v130 : Ref sig .tc := ⟨.hbm, 233, rfl⟩
abbrev main_cst_22 : Ref sig .tc := ⟨.hbm, 234, rfl⟩
abbrev main_call15_v0 : Ref sig .tc := ⟨.hbm, 235, rfl⟩
abbrev main_call15_v1 : Ref sig .tc := ⟨.hbm, 236, rfl⟩
abbrev main_v131 : Ref sig .tc := ⟨.hbm, 237, rfl⟩
abbrev main_cst_23 : Ref sig .tc := ⟨.hbm, 238, rfl⟩
abbrev main_v132 : Ref sig .tc := ⟨.hbm, 239, rfl⟩
abbrev main_v133 : Ref sig .tc := ⟨.hbm, 240, rfl⟩
abbrev main_v134 : Ref sig .tc := ⟨.hbm, 241, rfl⟩
abbrev main_v135 : Ref sig .tc := ⟨.hbm, 242, rfl⟩
abbrev main_v136 : Ref sig .tc := ⟨.hbm, 243, rfl⟩
abbrev main_v137 : Ref sig .tc := ⟨.hbm, 244, rfl⟩
abbrev main_call16_v0 : Ref sig .tc := ⟨.hbm, 245, rfl⟩
abbrev main_call16_v1 : Ref sig .tc := ⟨.hbm, 246, rfl⟩
abbrev main_call16_cst : Ref sig .tc := ⟨.hbm, 247, rfl⟩
abbrev main_call16_v2 : Ref sig .tc := ⟨.hbm, 248, rfl⟩
abbrev main_call16_v3 : Ref sig .tc := ⟨.hbm, 249, rfl⟩
abbrev main_call16_cst_0 : Ref sig .tc := ⟨.hbm, 250, rfl⟩
abbrev main_call16_v4 : Ref sig .tc := ⟨.hbm, 251, rfl⟩
abbrev main_call16_v5 : Ref sig .tc := ⟨.hbm, 252, rfl⟩
abbrev main_v138 : Ref sig .tc := ⟨.hbm, 253, rfl⟩
abbrev main_v139 : Ref sig .tc := ⟨.hbm, 254, rfl⟩
abbrev main_v140 : Ref sig .tc := ⟨.hbm, 255, rfl⟩
abbrev main_v141 : Ref sig .tc := ⟨.hbm, 256, rfl⟩
abbrev main_v142 : Ref sig .tc := ⟨.hbm, 257, rfl⟩
abbrev main_v143 : Ref sig .tc := ⟨.hbm, 258, rfl⟩
abbrev main_v144 : Ref sig .tc := ⟨.hbm, 259, rfl⟩
abbrev main_v145 : Ref sig .tc := ⟨.hbm, 260, rfl⟩
abbrev main_v146 : Ref sig .tc := ⟨.hbm, 261, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x2_0_1 : S8192x1.BroadcastsInDim S8192x2 (![0, 1] : Fin 2 → Fin S8192x2.rank)
  bcast_S_S8192x2 : S_.BroadcastsInDim S8192x2 (![] : Fin 0 → Fin S8192x2.rank)
  bcast_S_S8192x2048 : S_.BroadcastsInDim S8192x2048 (![] : Fin 0 → Fin S8192x2048.rank)
  reducesTo_S8192x2_S8192_d1 : S8192x2.ReducesTo [1] S8192
  h_S_ : 0 < S_.numel
  slices_S8x2048x2048_S1x2048x2048_0_0_0 : S8x2048x2048.Slices ![0, 0, 0] S1x2048x2048
  shapeCasts_S1x2048x2048_S2048x2048 : S1x2048x2048.ShapeCasts S2048x2048
  slices_S8192x2048_S8192x1024_0_0 : S8192x2048.Slices ![0, 0] S8192x1024
  slices_S8192x2048_S8192x1024_0_1024 : S8192x2048.Slices ![0, 1024] S8192x1024
  bcast_S_S8192x1024 : S_.BroadcastsInDim S8192x1024 (![] : Fin 0 → Fin S8192x1024.rank)
  bcast_S8192x1_S8192x1024_0_1 : S8192x1.BroadcastsInDim S8192x1024 (![0, 1] : Fin 2 → Fin S8192x1024.rank)
  slices_S8x1024x2048_S1x1024x2048_0_0_0 : S8x1024x2048.Slices ![0, 0, 0] S1x1024x2048
  shapeCasts_S1x1024x2048_S1024x2048 : S1x1024x2048.ShapeCasts S1024x2048
  slices_S8x2048x2048_S1x2048x2048_1_0_0 : S8x2048x2048.Slices ![1, 0, 0] S1x2048x2048
  slices_S8x1024x2048_S1x1024x2048_1_0_0 : S8x1024x2048.Slices ![1, 0, 0] S1x1024x2048
  slices_S8x2048x2048_S1x2048x2048_2_0_0 : S8x2048x2048.Slices ![2, 0, 0] S1x2048x2048
  slices_S8x1024x2048_S1x1024x2048_2_0_0 : S8x1024x2048.Slices ![2, 0, 0] S1x1024x2048
  slices_S8x2048x2048_S1x2048x2048_3_0_0 : S8x2048x2048.Slices ![3, 0, 0] S1x2048x2048
  slices_S8x1024x2048_S1x1024x2048_3_0_0 : S8x1024x2048.Slices ![3, 0, 0] S1x1024x2048
  slices_S8x2048x2048_S1x2048x2048_4_0_0 : S8x2048x2048.Slices ![4, 0, 0] S1x2048x2048
  slices_S8x1024x2048_S1x1024x2048_4_0_0 : S8x1024x2048.Slices ![4, 0, 0] S1x1024x2048
  slices_S8x2048x2048_S1x2048x2048_5_0_0 : S8x2048x2048.Slices ![5, 0, 0] S1x2048x2048
  slices_S8x1024x2048_S1x1024x2048_5_0_0 : S8x1024x2048.Slices ![5, 0, 0] S1x1024x2048
  slices_S8x2048x2048_S1x2048x2048_6_0_0 : S8x2048x2048.Slices ![6, 0, 0] S1x2048x2048
  slices_S8x1024x2048_S1x1024x2048_6_0_0 : S8x1024x2048.Slices ![6, 0, 0] S1x1024x2048
  slices_S8x2048x2048_S1x2048x2048_7_0_0 : S8x2048x2048.Slices ![7, 0, 0] S1x2048x2048
  slices_S8x1024x2048_S1x1024x2048_7_0_0 : S8x1024x2048.Slices ![7, 0, 0] S1x1024x2048
  dot_S8192x2048_S2048x2048_S8192x2048_1_0_0_1_n_n_wf : DotDims.WF S8192x2048 S2048x2048 S8192x2048 [1] [0] [0] [1] [] []
  dot_S8192x1024_S1024x2048_S8192x2048_1_0_0_1_n_n_wf : DotDims.WF S8192x1024 S1024x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf
def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf

class Facts : Prop extends Facts₀ where

variable [Facts]
-- ==== Proof.Spec.lean ====
/-
  THE FUNCTION BOTH PROGRAMS COMPUTE, over the extended reals.

  Tokens are rows r < 8192 of x [8192, 2048]. Each token carries two (expert index, routing weight) pairs; a masked token's
  expert indices have been replaced by -1 beforehand (the array `mi` below is the indices AFTER that replacement, whatever
  it was). For expert e < 8, with its up/gate matrix Wg[e] [2048, 2048] and its down matrix Wd[e] [1024, 2048]:

    prob e r     = the sum, over the token's two pairs, of the weight where the index equals e, else 0
    proj e r n   = Σ_{d < 2048} x[r, d] · Wg[e, d, n]                       (one entry of x · Wg[e])
    hid e r k    = ((g · logistic g) · u) · prob e r   with g = proj e r k, u = proj e r (1024 + k)   (k < 1024)
    term e r c   = Σ_{k < 1024} hid e r k · Wd[e, k, c]
    out r c      = Σ_{e < 8} term e r c.

  The word an index is compared with is kept as a separate argument `ew` of `prob`, `hid` and `term`, because one program
  spells it as a literal and the other as the number of a grid coordinate; `out` uses the word of the number e.
-/
import Idealize.ShloMosaic.PureOps.Ideal
import Idealize.ShloMosaic.Lib.ValueIdx

noncomputable section

open scoped BigOperators

namespace Cert.Moe

open Idealize.ShloMosaic Idealize.ShloMosaic.ValueIdx

abbrev SX : Shape := ⟨2, ![8192, 2048]⟩
abbrev SI : Shape := ⟨2, ![8192, 2]⟩
abbrev SG : Shape := ⟨3, ![8, 2048, 2048]⟩
abbrev SD : Shape := ⟨3, ![8, 1024, 2048]⟩

/-- Column k of the gate half of an up/gate matrix (columns 0 … 1023). -/
abbrev gateCol (k : Fin 1024) : Fin 2048 := ⟨k.val, by have := k.isLt; omega⟩
/-- Column k of the up half (columns 1024 … 2047). -/
abbrev upCol (k : Fin 1024) : Fin 2048 := ⟨1024 + k.val, by have := k.isLt; omega⟩

section
variable (x : SX.Idx → EReal) (mi : SI.Idx → BitVec 32) (w : SI.Idx → EReal) (Wg : SG.Idx → EReal) (Wd : SD.Idx → EReal)

/-- The routing weight token r gives to the expert whose index word is `ew`. -/
def prob (ew : BitVec 32) (r : Fin 8192) : EReal :=
  ∑ j : Fin 2, Scalar.select (IntOp.cmpi .eq (mi (ix2 r j)) ew) (w (ix2 r j)) (Ideal.ofBits .f32 0x00000000#32)

/-- One entry of x · Wg[e]. -/
def proj (e : Fin 8) (r : Fin 8192) (n : Fin 2048) : EReal := ∑ d : Fin 2048, x (ix2 r d) * Wg (ix3 e d n)

/-- The weighted gated hidden activation of token r in expert e, hidden unit k. -/
def hid (e : Fin 8) (ew : BitVec 32) (r : Fin 8192) (k : Fin 1024) : EReal :=
  ((proj x Wg e r (gateCol k) * Ideal.logistic (proj x Wg e r (gateCol k))) * proj x Wg e r (upCol k)) * prob mi w ew r

/-- Expert e's contribution to output entry (r, c). -/
def term (e : Fin 8) (ew : BitVec 32) (r : Fin 8192) (c : Fin 2048) : EReal :=
  ∑ k : Fin 1024, hid x mi w Wg e ew r k * Wd (ix3 e k c)

/-- The output entry (r, c): the experts' contributions added up. -/
def out (r : Fin 8192) (c : Fin 2048) : EReal := ∑ e : Fin 8, term x mi w Wg Wd e (BitVec.ofNat 32 e.val) r c

end

end Cert.Moe

end
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.LibRowReads.lean ====
/-
  READING A MATRIX PRODUCT AND A BROADCAST ROW AT AN ELEMENT.

  Two facts about [M, K] × [K, N] products with no batch axis, over the extended reals: a kernel's product into a zero
  accumulator, and a host program's dot, are both, at (r, q), the sum over k < K of left(r, k) · right(k, q) — for any
  record describing such a product. And three facts about a row vector: a [1, b] row re-laid as [b] and back as [1, b]
  and then repeated down a rows has, at (r, c), the row's entry c; the same for a [b] vector made a row and repeated;
  and a [1, b] row re-laid as [b] has, at c, the row's entry c. The host program's spellings of the same things are
  read too: a [b] vector broadcast to a [1, b] row and then down M rows; row o (slab o) of a stacked [n, b] ([n, a, b])
  parameter sliced out and re-laid as a vector (a matrix); the first k rows (slabs) of a stacked parameter; a scalar
  constant broadcast to any shape. Everything is generic in the sizes.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«172396_j13864154432369_1_alg».proof.Proof.LibPlainDot

noncomputable section

open scoped BigOperators

namespace Cert.Lib

open Idealize.ShloMosaic Idealize.ShloMosaic.ValueIdx

section Products

variable {M K N : Nat} (d : DotDims ⟨2, ![M, K]⟩ ⟨2, ![K, N]⟩ ⟨2, ![M, N]⟩)

/-- A kernel's matrix product into a zero accumulator, at (r, q): row r of the left operand against column q of the
    right one. -/
theorem matmul_zero_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    matmul d prec a b (constant (F := Ideal) ⟨2, ![M, N]⟩ .f32 0x00000000#32) (ix2 r q)
      = ∑ p : Fin K, a (ix2 r p) * b (ix2 p q) :=
  (Ideal.matmul_constant_zero_apply d prec a b (ix2 r q)).trans
    (sum_contr_plain d hl hr hln hrn hlb hrb (fun i j => a i * b j) r q)

/-- A host program's dot, at (r, q): the same sum. -/
theorem dotGeneral_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    Host.dotGeneral d prec a b (ix2 r q) = ∑ p : Fin K, a (ix2 r p) * b (ix2 p q) :=
  (Ideal.dotGeneral_apply d prec .single a b (ix2 r q)).trans
    (sum_contr_plain d hl hr hln hrn hlb hrb (fun i j => a i * b j) r q)

end Products

section Rows

variable {α : Type}

/-- A [1, b] row re-laid as [b], back as [1, b], and repeated down a rows: at (r, c), the row's entry c. -/
theorem bcast_row_apply {a b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (c : Fin b) :
    broadcastTo ⟨2, ![a, b]⟩ (shapeCast ⟨2, ![1, b]⟩ (shapeCast ⟨1, ![b]⟩ v h1) h2) h3 (ix2 r c) = v (ix2 (0 : Fin 1) c) := by
  rw [broadcastTo_1b_ab_apply, shapeCast_a_1a_apply, shapeCast_1a_a_apply]

/-- A [b] vector made a [1, b] row and repeated down a rows: at (r, c), the vector's entry c. -/
theorem bcast_vec_apply {a b : Nat} (v : (⟨1, ![b]⟩ : Shape).Idx → α)
    (h2 : (⟨1, ![b]⟩ : Shape).ShapeCasts ⟨2, ![1, b]⟩) (h3 : (⟨2, ![1, b]⟩ : Shape).Broadcasts ⟨2, ![a, b]⟩)
    (r : Fin a) (c : Fin b) :
    broadcastTo ⟨2, ![a, b]⟩ (shapeCast ⟨2, ![1, b]⟩ v h2) h3 (ix2 r c) = v (ix1 c) := by
  rw [broadcastTo_1b_ab_apply, shapeCast_a_1a_apply]

/-- A [1, b] row re-laid as [b] and back as [1, b]: at (0, c), the row's entry c. -/
theorem row_relaid_apply {b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩) (c : Fin b) :
    shapeCast ⟨2, ![1, b]⟩ (shapeCast ⟨1, ![b]⟩ v h1) h2 (ix2 (0 : Fin 1) c) = v (ix2 (0 : Fin 1) c) := by
  rw [shapeCast_a_1a_apply, shapeCast_1a_a_apply]

end Rows

section HostRows

variable {α : Type}

/-- A [b] vector broadcast along axis 1 to a [1, b] row: at (u, c), the vector's entry c. -/
theorem bcastInDim_vecRow_apply {b : Nat} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) ?_
  intro a
  match a with
  | ⟨0, _⟩ =>
    show c.val = if b = 1 then 0 else c.val
    split
    · have := c.isLt; omega
    · rfl

/-- A [b] vector broadcast to a [1, b] row and then down M rows: at (R, c), the vector's entry c. -/
theorem bcastInDim_vecRows_apply {M b : Nat} (h1 : (⟨1, ![b]⟩ : Shape).BroadcastsInDim ⟨2, ![1, b]⟩ ![1])
    (h2 : (⟨2, ![1, b]⟩ : Shape).BroadcastsInDim ⟨2, ![M, b]⟩ ![0, 1]) (x : (⟨1, ![b]⟩ : Shape).Idx → α)
    (R : Fin M) (c : Fin b) :
    broadcastInDim ⟨2, ![M, b]⟩ ![0, 1] h2 (broadcastInDim ⟨2, ![1, b]⟩ ![1] h1 x) (ix2 R c) = x (ix1 c) := by
  rw [broadcastInDim_oneRow_apply, bcastInDim_vecRow_apply]

/-- Row o of a stacked [n, b] parameter, sliced out as [1, b] and re-laid as [b]: at c, the parameter at (o, c). -/
theorem row_vec_apply {n b : Nat} (X : (⟨2, ![n, b]⟩ : Shape).Idx → α) (o : Nat) (ho : o < n)
    (hs : (⟨2, ![n, b]⟩ : Shape).Slices ![o, 0] ⟨2, ![1, b]⟩) (hc : (⟨2, ![1, b]⟩ : Shape).ShapeCasts ⟨1, ![b]⟩)
    (c : Fin b) :
    shapeCast ⟨1, ![b]⟩ (extractStridedSlice ⟨2, ![1, b]⟩ ![o, 0] X hs) hc (ix1 c) = X (ix2 (⟨o, ho⟩ : Fin n) c) := by
  rw [shapeCast_1a_a_apply]
  exact extractStridedSlice_apply _ X hs _ _ fun a => match a with
    | ⟨0, _⟩ => rfl
    | ⟨1, _⟩ => (Nat.zero_add _).symm

/-- Slab o of a stacked [n, a, b] parameter, sliced out as [1, a, b] and re-laid as [a, b]: at (p, q), the parameter
    at (o, p, q). -/
theorem slab_mat_apply {n a b : Nat} (X : (⟨3, ![n, a, b]⟩ : Shape).Idx → α) (o : Nat) (ho : o < n)
    (hs : (⟨3, ![n, a, b]⟩ : Shape).Slices ![o, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![o, 0, 0] X hs) hc (ix2 p q)
      = X (ix3 (⟨o, ho⟩ : Fin n) p q) := by
  rw [shapeCast_1ab_ab_apply]
  exact extractStridedSlice_apply _ X hs _ _ fun ax => match ax with
    | ⟨0, _⟩ => rfl
    | ⟨1, _⟩ => (Nat.zero_add _).symm
    | ⟨2, _⟩ => (Nat.zero_add _).symm

/-- The first k slabs of a stacked [n, a, b] parameter: at (s, p, q), the parameter at (s, p, q). -/
theorem slabs_apply {n k a b : Nat} (X : (⟨3, ![n, a, b]⟩ : Shape).Idx → α) (hk : k ≤ n)
    (hs : (⟨3, ![n, a, b]⟩ : Shape).Slices ![0, 0, 0] ⟨3, ![k, a, b]⟩) (s : Fin k) (p : Fin a) (q : Fin b) :
    extractStridedSlice ⟨3, ![k, a, b]⟩ ![0, 0, 0] X hs (ix3 s p q) = X (ix3 (Fin.castLE hk s) p q) :=
  extractStridedSlice_apply _ X hs _ _ fun ax => match ax with
    | ⟨0, _⟩ => (Nat.zero_add _).symm
    | ⟨1, _⟩ => (Nat.zero_add _).symm
    | ⟨2, _⟩ => (Nat.zero_add _).symm

/-- The first k rows of a stacked [n, b] parameter: at (s, c), the parameter at (s, c). -/
theorem rows_apply {n k b : Nat} (X : (⟨2, ![n, b]⟩ : Shape).Idx → α) (hk : k ≤ n)
    (hs : (⟨2, ![n, b]⟩ : Shape).Slices ![0, 0] ⟨2, ![k, b]⟩) (s : Fin k) (c : Fin b) :
    extractStridedSlice ⟨2, ![k, b]⟩ ![0, 0] X hs (ix2 s c) = X (ix2 (Fin.castLE hk s) c) :=
  extractStridedSlice_apply _ X hs _ _ fun ax => match ax with
    | ⟨0, _⟩ => (Nat.zero_add _).symm
    | ⟨1, _⟩ => (Nat.zero_add _).symm

/-- A float constant broadcast from a scalar to any shape reads the constant's number everywhere. -/
theorem bcast_const_apply {T : Shape} {φ : FTy} (h : (⟨0, ![]⟩ : Shape).BroadcastsInDim T ![]) (w : BitVec φ.bits)
    (j : T.Idx) : broadcastInDim T ![] h (constant (F := Ideal) ⟨0, ![]⟩ φ w) j = Ideal.ofBits φ w :=
  broadcastInDim_scalar_apply h _ j

/-- The host's reciprocal square root of a vector, at an entry. -/
theorem hostRsqrt_apply {s : Shape} {φ : FTy} (a : FVec Ideal s φ) (i : s.Idx) :
    Host.rsqrt a i = Ideal.rsqrt (a i) := rfl

end HostRows

end Cert.Lib

end
-- ==== Proof.LibHostRead.lean ====
/-
  HOST LAYOUT OPERATIONS OF A GRAPH PROPAGATION STEP, READ AT AN ELEMENT. Generic in the sizes.

  A propagation step's host side moves per-edge and per-node vectors into the shapes its gather, scatter and
  elementwise products want:
    row r of a [2, E] index table, sliced out as [1, E] and reshaped to [E]            (rowOfPair_apply);
    a vector [E] made a column [E, 1]                                                    (col_apply);
    that column spread along a new feature axis to [E, D]                                (spread_apply, colSpread_apply);
    a scalar spread to any shape                                                         (splat_apply);
    a vector [D] made a row [1, D] by a reshape                                          (rowOfVec_apply).
  Each lemma says which element of the source the result holds at a given element; none depends on the element type.
-/
import Idealize.ShloMosaic.PureOps.Ideal
import Idealize.ShloMosaic.Lib.ValueIdx
import Idealize.ShloMosaic.Lib.Pipeline.Value

noncomputable section

namespace Cert.Lib

open Idealize.ShloMosaic Idealize.ShloMosaic.ValueIdx

variable {α : Type}

/-- A scalar spread to any shape holds the scalar everywhere. -/
theorem splat_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector made a column: the column's element (e, 0) is the vector's element e. -/
theorem col_apply {E : Nat} (dims : Fin (⟨1, ![E]⟩ : Shape).rank → Fin (⟨2, ![E, 1]⟩ : Shape).rank) (hd : dims 0 = 0)
    (h : (⟨1, ![E]⟩ : Shape).BroadcastsInDim ⟨2, ![E, 1]⟩ dims) (v : (⟨1, ![E]⟩ : Shape).Idx → α) (e : Fin E) (z : Fin 1) :
    broadcastInDim ⟨2, ![E, 1]⟩ dims h v (ix2 e z) = v (ix1 e) := by
  refine broadcastInDim_apply dims h v (ix2 e z) (ix1 e) (fun a => ?_)
  match a with
  | ⟨0, _⟩ =>
    show e.val = if E = 1 then 0 else ((ix2 e z) (dims 0)).val
    rw [hd]
    split
    · rename_i h1; have := e.isLt; show e.val = 0; omega
    · rfl

/-- A column spread along a new feature axis: element (e, k) is the column's element (e, 0). -/
theorem spread_apply {E D : Nat} (dims : Fin (⟨2, ![E, 1]⟩ : Shape).rank → Fin (⟨2, ![E, D]⟩ : Shape).rank)
    (hd0 : dims 0 = 0) (hd1 : dims 1 = 1)
    (h : (⟨2, ![E, 1]⟩ : Shape).BroadcastsInDim ⟨2, ![E, D]⟩ dims) (v : (⟨2, ![E, 1]⟩ : Shape).Idx → α) (e : Fin E) (k : Fin D) :
    broadcastInDim ⟨2, ![E, D]⟩ dims h v (ix2 e k) = v (ix2 e (0 : Fin 1)) := by
  refine broadcastInDim_apply dims h v (ix2 e k) (ix2 e (0 : Fin 1)) (fun a => ?_)
  match a with
  | ⟨0, _⟩ =>
    show e.val = if E = 1 then 0 else ((ix2 e k) (dims 0)).val
    rw [hd0]
    split
    · rename_i h1; have := e.isLt; show e.val = 0; omega
    · rfl
  | ⟨1, _⟩ =>
    show (0 : Nat) = if (1 : Nat) = 1 then 0 else ((ix2 e k) (dims 1)).val
    rw [if_pos rfl]

/-- A vector made a column and spread along a feature axis: element (e, k) is the vector's element e. -/
theorem colSpread_apply {E D : Nat} (dims1 : Fin (⟨1, ![E]⟩ : Shape).rank → Fin (⟨2, ![E, 1]⟩ : Shape).rank) (hd : dims1 0 = 0)
    (h1 : (⟨1, ![E]⟩ : Shape).BroadcastsInDim ⟨2, ![E, 1]⟩ dims1)
    (dims2 : Fin (⟨2, ![E, 1]⟩ : Shape).rank → Fin (⟨2, ![E, D]⟩ : Shape).rank) (hd0 : dims2 0 = 0) (hd1 : dims2 1 = 1)
    (h2 : (⟨2, ![E, 1]⟩ : Shape).BroadcastsInDim ⟨2, ![E, D]⟩ dims2) (v : (⟨1, ![E]⟩ : Shape).Idx → α) (e : Fin E) (k : Fin D) :
    broadcastInDim ⟨2, ![E, D]⟩ dims2 h2 (broadcastInDim ⟨2, ![E, 1]⟩ dims1 h1 v) (ix2 e k) = v (ix1 e) := by
  rw [spread_apply dims2 hd0 hd1 h2, col_apply dims1 hd h1]

/-- Row r of a two-row table, sliced out and flattened: element e is the table's element (r, e). -/
theorem rowOfPair_apply {E : Nat} (r : Fin 2) (off : Fin (⟨2, ![2, E]⟩ : Shape).rank → Nat) (ho0 : off 0 = r.val) (ho1 : off 1 = 0)
    (hs : (⟨2, ![2, E]⟩ : Shape).Slices off ⟨2, ![1, E]⟩) (hc : (⟨2, ![1, E]⟩ : Shape).ShapeCasts ⟨1, ![E]⟩)
    (A : (⟨2, ![2, E]⟩ : Shape).Idx → α) (e : Fin E) :
    shapeCast ⟨1, ![E]⟩ (extractStridedSlice ⟨2, ![1, E]⟩ off A hs) hc (ix1 e) = A (ix2 r e) := by
  rw [shapeCast_apply _ hc (ix1 e) (ix2 (0 : Fin 1) e) (by
    rw [Shape.rowMajor_val_two, Shape.rowMajor_val_one]
    show 0 * E + e.val = e.val
    omega)]
  refine extractStridedSlice_apply off A hs (ix2 (0 : Fin 1) e) (ix2 r e) (fun a => ?_)
  match a with
  | ⟨0, _⟩ => show r.val = off 0 + 0; rw [ho0, Nat.add_zero]
  | ⟨1, _⟩ => show e.val = off 1 + e.val; rw [ho1]; omega

/-- A vector made a row by a reshape: the row's element (0, f) is the vector's element f. -/
theorem rowOfVec_apply {D : Nat} (hc : (⟨1, ![D]⟩ : Shape).ShapeCasts ⟨2, ![1, D]⟩) (v : (⟨1, ![D]⟩ : Shape).Idx → α)
    (z : Fin 1) (f : Fin D) : shapeCast ⟨2, ![1, D]⟩ v hc (ix2 z f) = v (ix1 f) := by
  refine shapeCast_apply v hc (ix2 z f) (ix1 f) ?_
  rw [Shape.rowMajor_val_two, Shape.rowMajor_val_one]
  show f.val = z.val * D + f.val
  have := z.isLt
  have hz : z.val = 0 := by omega
  rw [hz]; omega

end Cert.Lib

end
-- ==== Proof.LibColRange.lean ====
/-
  A RANGE OF COLUMNS CUT OUT OF A MATRIX, READ AT AN ELEMENT.

  The k columns o, o + 1, …, o + k − 1 of an a-by-b matrix, cut out as an a-by-k matrix, hold at (r, j) the matrix's
  entry (r, o + j). Generic in the sizes.
-/
import Idealize.ShloMosaic.Lib.Pipeline.Value
import Idealize.ShloMosaic.Lib.ValueIdx

noncomputable section

namespace Cert.Lib

open Idealize.ShloMosaic Idealize.ShloMosaic.ValueIdx

/-- Columns o … o + k − 1 of an a-by-b matrix: at (r, j), the matrix at (r, c') for the column c' = o + j. -/
theorem colRange_apply {α : Type} {a b k : Nat} (X : (⟨2, ![a, b]⟩ : Shape).Idx → α) (o : Nat)
    (hs : (⟨2, ![a, b]⟩ : Shape).Slices ![0, o] ⟨2, ![a, k]⟩) (r : Fin a) (j : Fin k) (c' : Fin b) (hc : c'.val = o + j.val) :
    extractStridedSlice ⟨2, ![a, k]⟩ ![0, o] X hs (ix2 r j) = X (ix2 r c') :=
  extractStridedSlice_apply _ X hs _ _ fun ax => match ax with
    | ⟨0, _⟩ => (Nat.zero_add _).symm
    | ⟨1, _⟩ => hc

end Cert.Lib

end
-- ==== Proof.RefExpert.lean ====
/-
  THE REFERENCE, EXPERT BY EXPERT. The reference adds, onto an array of zeros, one [8192, 2048] product per expert
  e = 0, …, 7. Each product is spelt by the same operations; only the slab of the two parameter arrays that is cut
  out (slab e) and the word the expert indices are compared with (the word of e) change. This module names that
  expert's product once, for any slab number, and reads it at an entry (r, c): it is `Cert.Moe.term` of expert e,

    Σ_{k < 1024} ((g · logistic g) · u · prob) · Wd[e, k, c],   g = (x · Wg[e])[r, k],   u = (x · Wg[e])[r, 1024 + k].

  The reference's own spelling of the logistic function, 1 / (1 + exp (−g)), is the extended reals' logistic function by
  definition; its literal 1.0 is the extended real 1.
-/
import proofs.«172396_j13864154432369_1_alg».proof.Proof.Gen.ReferenceIdeal
import proofs.«172396_j13864154432369_1_alg».proof.Proof.Spec
import proofs.«172396_j13864154432369_1_alg».proof.Proof.LibRowReads
import proofs.«172396_j13864154432369_1_alg».proof.Proof.LibHostRead
import proofs.«172396_j13864154432369_1_alg».proof.Proof.LibColRange
import Idealize.ShloMosaic.Lib.IdealHost
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

variable {F : FTy → Type} [FloatOps F]

/-- The expert indices with a masked token's replaced by -1. -/
def maskedIdx (mask : (⟨S8192, .i1⟩ : BufTy).Contents (Elt F)) (idx : (⟨S8192x2, .i32⟩ : BufTy).Contents (Elt F)) :
    (⟨S8192x2, .i32⟩ : BufTy).Contents (Elt F) :=
  select (broadcastInDim S8192x2 ![0, 1] bcast_S8192x1_S8192x2_0_1 (broadcastInDim S8192x1 ![0] bcast_S8192_S8192x1_0 mask)) idx
    (broadcastInDim S8192x2 ![] bcast_S_S8192x2 (id (constantI S_ 32 4294967295#32)))

/-- x · Wg[e], all 2048 columns. -/
def projOf (e : Nat) (hs4 : S8x2048x2048.Slices ![e, 0, 0] S1x2048x2048)
    (x : (⟨S8192x2048, .f32⟩ : BufTy).Contents (Elt F)) (Wg : (⟨S8x2048x2048, .f32⟩ : BufTy).Contents (Elt F)) :
    (⟨S8192x2048, .f32⟩ : BufTy).Contents (Elt F) :=
  Host.dotGeneral dot_S8192x2048_S2048x2048_S8192x2048_1_0_0_1_n_n none x
    (shapeCast _ (extractStridedSlice S1x2048x2048 ![e, 0, 0] Wg hs4) shapeCasts_S1x2048x2048_S2048x2048)

/-- The routing weight of the expert whose word is `ew`, one per token, repeated along the 1024 hidden units. -/
def probOf (ew : BitVec 32) (mi : (⟨S8192x2, .i32⟩ : BufTy).Contents (Elt F)) (w : (⟨S8192x2, .f32⟩ : BufTy).Contents (Elt F)) :
    (⟨S8192x1024, .f32⟩ : BufTy).Contents (Elt F) :=
  broadcastInDim S8192x1024 ![0, 1] bcast_S8192x1_S8192x1024_0_1 (broadcastInDim S8192x1 ![0] bcast_S8192_S8192x1_0
    (Host.reduceAdd (select (cmpi .eq mi (broadcastInDim S8192x2 ![] bcast_S_S8192x2 (constantI S_ 32 ew))) w
      (broadcastInDim S8192x2 ![] bcast_S_S8192x2 (id (constant S_ .f32 0x00000000#32)))) (constant S_ .f32 0x00000000#32)
      reducesTo_S8192x2_S8192_d1 h_S_))

/-- The weighted gated hidden activations of expert e. -/
def hidOf (e : Nat) (hs4 : S8x2048x2048.Slices ![e, 0, 0] S1x2048x2048) (ew : BitVec 32)
    (x : (⟨S8192x2048, .f32⟩ : BufTy).Contents (Elt F)) (mi : (⟨S8192x2, .i32⟩ : BufTy).Contents (Elt F))
    (w : (⟨S8192x2, .f32⟩ : BufTy).Contents (Elt F)) (Wg : (⟨S8x2048x2048, .f32⟩ : BufTy).Contents (Elt F)) :
    (⟨S8192x1024, .f32⟩ : BufTy).Contents (Elt F) :=
  mulf (mulf (mulf (extractStridedSlice S8192x1024 ![0, 0] (projOf e hs4 x Wg) slices_S8192x2048_S8192x1024_0_0)
      (Host.divf (broadcastInDim S8192x1024 ![] bcast_S_S8192x1024 (constant S_ .f32 0x3F800000#32))
        (addf (broadcastInDim S8192x1024 ![] bcast_S_S8192x1024 (constant S_ .f32 0x3F800000#32))
          (Host.exp (Host.negf (extractStridedSlice S8192x1024 ![0, 0] (projOf e hs4 x Wg) slices_S8192x2048_S8192x1024_0_0))))))
    (extractStridedSlice S8192x1024 ![0, 1024] (projOf e hs4 x Wg) slices_S8192x2048_S8192x1024_0_1024))
    (probOf ew mi w)

/-- Expert e's product. -/
def expertOut (e : Nat) (hs4 : S8x2048x2048.Slices ![e, 0, 0] S1x2048x2048) (hs5 : S8x1024x2048.Slices ![e, 0, 0] S1x1024x2048)
    (ew : BitVec 32) (x : (⟨S8192x2048, .f32⟩ : BufTy).Contents (Elt F)) (mi : (⟨S8192x2, .i32⟩ : BufTy).Contents (Elt F))
    (w : (⟨S8192x2, .f32⟩ : BufTy).Contents (Elt F)) (Wg : (⟨S8x2048x2048, .f32⟩ : BufTy).Contents (Elt F))
    (Wd : (⟨S8x1024x2048, .f32⟩ : BufTy).Contents (Elt F)) : (⟨S8192x2048, .f32⟩ : BufTy).Contents (Elt F) :=
  Host.dotGeneral dot_S8192x1024_S1024x2048_S8192x2048_1_0_0_1_n_n none (hidOf e hs4 ew x mi w Wg)
    (shapeCast _ (extractStridedSlice S1x1024x2048 ![e, 0, 0] Wd hs5) shapeCasts_S1x1024x2048_S1024x2048)

/-! ## Read at an entry, on the extended reals -/

section Read

variable (e : Fin 8) (hs4 : S8x2048x2048.Slices ![e.val, 0, 0] S1x2048x2048) (hs5 : S8x1024x2048.Slices ![e.val, 0, 0] S1x1024x2048)
  (ew : BitVec 32) (x : (⟨S8192x2048, .f32⟩ : BufTy).Contents (Elt Ideal)) (mi : (⟨S8192x2, .i32⟩ : BufTy).Contents (Elt Ideal))
  (w : (⟨S8192x2, .f32⟩ : BufTy).Contents (Elt Ideal)) (Wg : (⟨S8x2048x2048, .f32⟩ : BufTy).Contents (Elt Ideal))
  (Wd : (⟨S8x1024x2048, .f32⟩ : BufTy).Contents (Elt Ideal))

/-- An entry of x · Wg[e]: the row of x against the column of slab e. -/
theorem projOf_at (r : Fin 8192) (n : Fin 2048) :
    projOf (F := Ideal) e.val hs4 x Wg (ix2 r n) = Cert.Moe.proj x Wg e r n := by
  unfold projOf Cert.Moe.proj
  refine (Cert.Lib.dotGeneral_at _ rfl rfl rfl rfl rfl rfl none _ _ r n).trans ?_
  refine Finset.sum_congr rfl fun d _ => congrArg (x (ix2 r d) * ·) ?_
  exact Cert.Lib.slab_mat_apply Wg e.val e.isLt hs4 _ d n

/-- The routing weight at (r, k) is token r's, whatever the hidden unit k: the two-term sum of the selected weights
    onto the literal zero. -/
theorem probOf_at (r : Fin 8192) (k : Fin 1024) :
    probOf (F := Ideal) ew mi w (ix2 r k) = Cert.Moe.prob mi w ew r := by
  unfold probOf Cert.Moe.prob
  rw [Cert.Lib.colSpread_apply ![0] rfl bcast_S8192_S8192x1_0 ![0, 1] rfl rfl bcast_S8192x1_S8192x1024_0_1]
  simp only [Host.reduceAdd, Ideal.hostReduceAdd_def]
  rw [Ideal.hostReduceAdd_single reducesTo_S8192x2_S8192_d1 (by decide)]
  have hz : (constant (F := Ideal) S_ .f32 0x00000000#32) (Shape.Idx.first h_S_) = 0 := Ideal.ofBits_zero_f32
  rw [hz, zero_add]
  refine Finset.sum_congr rfl fun j _ => ?_
  have hi : (Shape.Reduces.lift (by decide : S8192x2.Reduces [1] S8192) (ix1 r) j) = ix2 r j :=
    funext fun a => Fin.ext (by match a with | ⟨0, _⟩ => rfl | ⟨1, _⟩ => rfl)
  rw [hi]
  show Scalar.select (IntOp.cmpi .eq (mi (ix2 r j)) (broadcastInDim S8192x2 ![] bcast_S_S8192x2 (constantI S_ 32 ew) (ix2 r j)))
      (w (ix2 r j)) (broadcastInDim S8192x2 ![] bcast_S_S8192x2 (id (constant (F := Ideal) S_ .f32 0x00000000#32)) (ix2 r j)) = _
  rw [Cert.Lib.splat_apply, Cert.Lib.splat_apply]
  rfl

/-- The hidden activation at (r, k). -/
theorem hidOf_at (r : Fin 8192) (k : Fin 1024) :
    hidOf (F := Ideal) e.val hs4 ew x mi w Wg (ix2 r k) = Cert.Moe.hid x mi w Wg e ew r k := by
  have hg : extractStridedSlice S8192x1024 ![0, 0] (projOf (F := Ideal) e.val hs4 x Wg) slices_S8192x2048_S8192x1024_0_0 (ix2 r k)
      = Cert.Moe.proj x Wg e r (Cert.Moe.gateCol k) :=
    (Cert.Lib.colRange_apply (projOf (F := Ideal) e.val hs4 x Wg) 0 slices_S8192x2048_S8192x1024_0_0 r k (Cert.Moe.gateCol k)
      (by show k.val = 0 + k.val; omega)).trans (projOf_at e hs4 x Wg r (Cert.Moe.gateCol k))
  have hu : extractStridedSlice S8192x1024 ![0, 1024] (projOf (F := Ideal) e.val hs4 x Wg) slices_S8192x2048_S8192x1024_0_1024 (ix2 r k)
      = Cert.Moe.proj x Wg e r (Cert.Moe.upCol k) :=
    (Cert.Lib.colRange_apply (projOf (F := Ideal) e.val hs4 x Wg) 1024 slices_S8192x2048_S8192x1024_0_1024 r k (Cert.Moe.upCol k)
      rfl).trans (projOf_at e hs4 x Wg r (Cert.Moe.upCol k))
  have h1 : broadcastInDim S8192x1024 ![] bcast_S_S8192x1024 (constant (F := Ideal) S_ .f32 0x3F800000#32) (ix2 r k) = 1 :=
    (Cert.Lib.bcast_const_apply bcast_S_S8192x1024 _ _).trans Ideal.ofBits_one_f32
  unfold hidOf Cert.Moe.hid
  show ((extractStridedSlice S8192x1024 ![0, 0] (projOf (F := Ideal) e.val hs4 x Wg) slices_S8192x2048_S8192x1024_0_0 (ix2 r k)
      * Ideal.div (broadcastInDim S8192x1024 ![] bcast_S_S8192x1024 (constant (F := Ideal) S_ .f32 0x3F800000#32) (ix2 r k))
          (broadcastInDim S8192x1024 ![] bcast_S_S8192x1024 (constant (F := Ideal) S_ .f32 0x3F800000#32) (ix2 r k)
            + Ideal.exp (-(extractStridedSlice S8192x1024 ![0, 0] (projOf (F := Ideal) e.val hs4 x Wg) slices_S8192x2048_S8192x1024_0_0 (ix2 r k)))))
      * extractStridedSlice S8192x1024 ![0, 1024] (projOf (F := Ideal) e.val hs4 x Wg) slices_S8192x2048_S8192x1024_0_1024 (ix2 r k))
      * probOf (F := Ideal) ew mi w (ix2 r k) = _
  rw [hg, hu, h1, probOf_at]
  rfl

/-- Expert e's product at (r, c) is the expert's term of the specification. -/
theorem expertOut_at (r : Fin 8192) (c : Fin 2048) :
    expertOut (F := Ideal) e.val hs4 hs5 ew x mi w Wg Wd (ix2 r c) = Cert.Moe.term x mi w Wg Wd e ew r c := by
  unfold expertOut Cert.Moe.term
  refine (Cert.Lib.dotGeneral_at _ rfl rfl rfl rfl rfl rfl none _ _ r c).trans ?_
  refine Finset.sum_congr rfl fun k _ => ?_
  rw [hidOf_at]
  exact congrArg (Cert.Moe.hid x mi w Wg e ew r k * ·) (Cert.Lib.slab_mat_apply Wd e.val e.isLt hs5 _ k c)

end Read

end Cert.ReferenceIdeal.RefValue

end
-- ==== Proof.LibTiles.lean ====
/-
  Sums over a contraction axis cut into tiles, and padded with zeros.

  A sum over 0 ≤ d < T·K is the sum, tile by tile, of the tiles' sums; and a sum over 0 ≤ d < n + p whose terms vanish
  from n on is the sum over 0 ≤ d < n.  Both hold in any commutative monoid: only the order and grouping of the terms
  changes, and zeros are dropped.
-/
import Mathlib.Algebra.BigOperators.Intervals
import Mathlib.Algebra.BigOperators.Fin

namespace Cert.Tiles

open Finset

variable {M : Type*} [AddCommMonoid M]

/-- Tile by tile: Σ_{k<K} Σ_{j<T} f (T·k + j) = Σ_{d<T·K} f d. -/
theorem sum_tiles (T : ℕ) (f : ℕ → M) : ∀ K : ℕ, ∑ k ∈ range K, ∑ j ∈ range T, f (T * k + j) = ∑ d ∈ range (T * K), f d
  | 0 => by simp
  | K + 1 => by rw [sum_range_succ, sum_tiles T f K, Nat.mul_succ, sum_range_add]

/-- The same with each tile summed over `Fin T`. -/
theorem sum_tiles_fin (T : ℕ) (f : ℕ → M) (K : ℕ) :
    ∑ k ∈ range K, ∑ j : Fin T, f (T * k + j.val) = ∑ d ∈ range (T * K), f d := by
  rw [← sum_tiles T f K]
  exact sum_congr rfl fun k _ => Fin.sum_univ_eq_sum_range (fun j => f (T * k + j)) T

/-- Terms that vanish from `n` on may be dropped. -/
theorem sum_drop_zeros (n p : ℕ) (f : ℕ → M) (hz : ∀ d, n ≤ d → f d = 0) :
    ∑ d ∈ range (n + p), f d = ∑ d ∈ range n, f d := by
  rw [sum_range_add, sum_eq_zero (fun d _ => hz (n + d) (Nat.le_add_right _ _)), add_zero]

/-- A sum over `range n` of a function given on `Fin n` (extended by zero) is the sum over `Fin n`. -/
theorem sum_range_dite (n : ℕ) (g : Fin n → M) :
    ∑ d ∈ range n, (if h : d < n then g ⟨d, h⟩ else 0) = ∑ d : Fin n, g d := by
  rw [← Fin.sum_univ_eq_sum_range (fun d => if h : d < n then g ⟨d, h⟩ else 0) n]
  exact sum_congr rfl fun d _ => by rw [dif_pos d.isLt]

end Cert.Tiles
-- ==== Proof.Regroup.lean ====
/-
  REGROUPING THE SUMS. The kernel adds up, for one token tile, sixteen partial products in the order
  (expert 0, hidden units 0…511), (expert 0, hidden units 512…1023), (expert 1, 0…511), …; the reference adds up eight
  whole products, expert by expert, each over all 1024 hidden units. In a commutative monoid — the extended reals under
  addition are one — both are the same sum: only the grouping changes.
-/
import Mathlib.Algebra.BigOperators.Fin
import Mathlib.Algebra.BigOperators.Intervals
import proofs.«172396_j13864154432369_1_alg».proof.Proof.LibTiles

open scoped BigOperators

namespace Cert.Moe

variable {M : Type*} [AddCommMonoid M]

/-- Hidden unit k of chunk ic (two chunks of 512 make the 1024 hidden units). -/
abbrev chunk (ic : Fin 2) (k : Fin 512) : Fin 1024 := ⟨512 * ic.val + k.val, by have := ic.isLt; have := k.isLt; omega⟩

/-- A sum over the 1024 hidden units, taken chunk by chunk. -/
theorem sum_two_chunks (f : Fin 1024 → M) : ∑ ic : Fin 2, ∑ k : Fin 512, f (chunk ic k) = ∑ k : Fin 1024, f k := by
  rw [Fin.sum_univ_two]
  refine Eq.trans ?_ (Fin.sum_univ_add (a := 512) (b := 512) (f : Fin (512 + 512) → M)).symm
  refine congrArg₂ (· + ·) ?_ ?_
  · exact Finset.sum_congr rfl fun k _ => congrArg f (Fin.ext (by show 512 * 0 + k.val = k.val; omega))
  · exact Finset.sum_congr rfl fun k _ => congrArg f (Fin.ext (by show 512 * 1 + k.val = 512 + k.val; omega))

/-- A sum over sixteen consecutive points, taken expert by expert and chunk by chunk: point 2e + ic is chunk ic of expert e. -/
theorem sum_sixteen (F : ℕ → M) :
    ∑ s ∈ Finset.range 16, F s = ∑ e : Fin 8, ∑ ic : Fin 2, F (2 * e.val + ic.val) := by
  rw [show (16 : ℕ) = 2 * 8 from rfl, ← Cert.Tiles.sum_tiles 2 F 8, Finset.sum_range]
  exact Finset.sum_congr rfl fun e _ => Finset.sum_range _

/-- Eight terms added one after the other onto a start value are the start value plus their sum. -/
theorem nest_eight (z : M) (t : Fin 8 → M) :
    ((((((((z + t 0) + t 1) + t 2) + t 3) + t 4) + t 5) + t 6) + t 7) = z + ∑ e : Fin 8, t e := by
  rw [Fin.sum_univ_eight]
  simp only [add_assoc]

end Cert.Moe
-- ==== Proof.RefValue.lean ====
/-
  THE REFERENCE'S RESULT, AT AN ENTRY. The reference's run ends with its result array at the eight experts' products
  added, one after the other, onto an array of zeros. At an entry (r, c) that is the zero plus the eight experts' terms of
  the specification added one after the other: their sum.
-/
import proofs.«172396_j13864154432369_1_alg».proof.Proof.RefRunP
import proofs.«172396_j13864154432369_1_alg».proof.Proof.RefExpert
import proofs.«172396_j13864154432369_1_alg».proof.Proof.Regroup

noncomputable section

open scoped BigOperators

namespace Cert.ReferenceIdeal.RefValue

open Cert.ReferenceIdeal Cert.ReferenceIdeal.Gen Cert.ReferenceIdeal.RunP Idealize.ShloMosaic Idealize.ShloMosaic.TcCoe Idealize.SL.Sem
  Idealize.ShloMosaic.ValueIdx

/-- The run's result term is the experts' products added in order onto the zeros. -/
theorem res_eq_experts {F : FTy → Type} [FloatOps F] (m : (ℓ : Loc nD τ sig) → Buf (Elt F) ℓ) (c : Dev nD) :
    res_main_v146 (F := F) m c
      = addf (addf (addf (addf (addf (addf (addf (addf (broadcastInDim S8192x2048 ![] bcast_S_S8192x2048 (constant S_ .f32 0x00000000#32)) (expertOut 0 slices_S8x2048x2048_S1x2048x2048_0_0_0 slices_S8x1024x2048_S1x1024x2048_0_0_0 0#32 (m ((c.tc : Thread nD τ).loc main_arg0)) (maskedIdx (m ((c.tc : Thread nD τ).loc main_arg1)) (m ((c.tc : Thread nD τ).loc main_arg3))) (m ((c.tc : Thread nD τ).loc main_arg2)) (m ((c.tc : Thread nD τ).loc main_arg4)) (m ((c.tc : Thread nD τ).loc main_arg5)))) (expertOut 1 slices_S8x2048x2048_S1x2048x2048_1_0_0 slices_S8x1024x2048_S1x1024x2048_1_0_0 1#32 (m ((c.tc : Thread nD τ).loc main_arg0)) (maskedIdx (m ((c.tc : Thread nD τ).loc main_arg1)) (m ((c.tc : Thread nD τ).loc main_arg3))) (m ((c.tc : Thread nD τ).loc main_arg2)) (m ((c.tc : Thread nD τ).loc main_arg4)) (m ((c.tc : Thread nD τ).loc main_arg5)))) (expertOut 2 slices_S8x2048x2048_S1x2048x2048_2_0_0 slices_S8x1024x2048_S1x1024x2048_2_0_0 2#32 (m ((c.tc : Thread nD τ).loc main_arg0)) (maskedIdx (m ((c.tc : Thread nD τ).loc main_arg1)) (m ((c.tc : Thread nD τ).loc main_arg3))) (m ((c.tc : Thread nD τ).loc main_arg2)) (m ((c.tc : Thread nD τ).loc main_arg4)) (m ((c.tc : Thread nD τ).loc main_arg5)))) (expertOut 3 slices_S8x2048x2048_S1x2048x2048_3_0_0 slices_S8x1024x2048_S1x1024x2048_3_0_0 3#32 (m ((c.tc : Thread nD τ).loc main_arg0)) (maskedIdx (m ((c.tc : Thread nD τ).loc main_arg1)) (m ((c.tc : Thread nD τ).loc main_arg3))) (m ((c.tc : Thread nD τ).loc main_arg2)) (m ((c.tc : Thread nD τ).loc main_arg4)) (m ((c.tc : Thread nD τ).loc main_arg5)))) (expertOut 4 slices_S8x2048x2048_S1x2048x2048_4_0_0 slices_S8x1024x2048_S1x1024x2048_4_0_0 4#32 (m ((c.tc : Thread nD τ).loc main_arg0)) (maskedIdx (m ((c.tc : Thread nD τ).loc main_arg1)) (m ((c.tc : Thread nD τ).loc main_arg3))) (m ((c.tc : Thread nD τ).loc main_arg2)) (m ((c.tc : Thread nD τ).loc main_arg4)) (m ((c.tc : Thread nD τ).loc main_arg5)))) (expertOut 5 slices_S8x2048x2048_S1x2048x2048_5_0_0 slices_S8x1024x2048_S1x1024x2048_5_0_0 5#32 (m ((c.tc : Thread nD τ).loc main_arg0)) (maskedIdx (m ((c.tc : Thread nD τ).loc main_arg1)) (m ((c.tc : Thread nD τ).loc main_arg3))) (m ((c.tc : Thread nD τ).loc main_arg2)) (m ((c.tc : Thread nD τ).loc main_arg4)) (m ((c.tc : Thread nD τ).loc main_arg5)))) (expertOut 6 slices_S8x2048x2048_S1x2048x2048_6_0_0 slices_S8x1024x2048_S1x1024x2048_6_0_0 6#32 (m ((c.tc : Thread nD τ).loc main_arg0)) (maskedIdx (m ((c.tc : Thread nD τ).loc main_arg1)) (m ((c.tc : Thread nD τ).loc main_arg3))) (m ((c.tc : Thread nD τ).loc main_arg2)) (m ((c.tc : Thread nD τ).loc main_arg4)) (m ((c.tc : Thread nD τ).loc main_arg5)))) (expertOut 7 slices_S8x2048x2048_S1x2048x2048_7_0_0 slices_S8x1024x2048_S1x1024x2048_7_0_0 7#32 (m ((c.tc : Thread nD τ).loc main_arg0)) (maskedIdx (m ((c.tc : Thread nD τ).loc main_arg1)) (m ((c.tc : Thread nD τ).loc main_arg3))) (m ((c.tc : Thread nD τ).loc main_arg2)) (m ((c.tc : Thread nD τ).loc main_arg4)) (m ((c.tc : Thread nD τ).loc main_arg5))) := by
  unfold res_main_v146
  rfl

section

variable (X : (⟨S8192x2048, .f32⟩ : BufTy).Contents (Elt Ideal)) (MI : (⟨S8192x2, .i32⟩ : BufTy).Contents (Elt Ideal))
  (W : (⟨S8192x2, .f32⟩ : BufTy).Contents (Elt Ideal)) (WG : (⟨S8x2048x2048, .f32⟩ : BufTy).Contents (Elt Ideal))
  (WD : (⟨S8x1024x2048, .f32⟩ : BufTy).Contents (Elt Ideal)) (r : Fin 8192) (cc : Fin 2048)

/-- Adding expert e's product onto an array adds the expert's term at each entry. -/
theorem step (acc : FVec Ideal S8192x2048 .f32) (e : Fin 8)
    (hs4 : S8x2048x2048.Slices ![e.val, 0, 0] S1x2048x2048) (hs5 : S8x1024x2048.Slices ![e.val, 0, 0] S1x1024x2048)
    (ew : BitVec 32) (hew : ew = BitVec.ofNat 32 e.val) (A : EReal) (hA : acc (ix2 r cc) = A) :
    addf (F := Ideal) (φ := .f32) acc (expertOut (F := Ideal) e.val hs4 hs5 ew X MI W WG WD) (ix2 r cc)
      = A + Cert.Moe.term X MI W WG WD e (BitVec.ofNat 32 e.val) r cc := by
  subst hew
  exact congrArg₂ (· + ·) hA (expertOut_at e hs4 hs5 _ X MI W WG WD r cc)

end

/-- THE REFERENCE'S RESULT at (r, c) is the specification's output entry of its arguments. -/
theorem res_at (m : (ℓ : Loc nD τ sig) → Buf (Elt Ideal) ℓ) (c : Dev nD) (r : Fin 8192) (cc : Fin 2048) :
    res_main_v146 (F := Ideal) m c (ix2 r cc)
      = Cert.Moe.out (m ((c.tc : Thread nD τ).loc main_arg0))
          (maskedIdx (m ((c.tc : Thread nD τ).loc main_arg1)) (m ((c.tc : Thread nD τ).loc main_arg3)))
          (m ((c.tc : Thread nD τ).loc main_arg2)) (m ((c.tc : Thread nD τ).loc main_arg4)) (m ((c.tc : Thread nD τ).loc main_arg5)) r cc := by
  generalize hX : m ((c.tc : Thread nD τ).loc main_arg0) = X
  generalize hMI : maskedIdx (m ((c.tc : Thread nD τ).loc main_arg1)) (m ((c.tc : Thread nD τ).loc main_arg3)) = MI
  generalize hW : m ((c.tc : Thread nD τ).loc main_arg2) = W
  generalize hWG : m ((c.tc : Thread nD τ).loc main_arg4) = WG
  generalize hWD : m ((c.tc : Thread nD τ).loc main_arg5) = WD
  have hZ : broadcastInDim S8192x2048 ![] bcast_S_S8192x2048 (constant (F := Ideal) S_ .f32 0x00000000#32) (ix2 r cc)
      = Ideal.ofBits .f32 0x00000000#32 := Cert.Lib.bcast_const_apply bcast_S_S8192x2048 _ _
  have a0 := step X MI W WG WD r cc _ (0 : Fin 8) slices_S8x2048x2048_S1x2048x2048_0_0_0 slices_S8x1024x2048_S1x1024x2048_0_0_0 0#32 rfl _ hZ
  have a1 := step X MI W WG WD r cc _ (1 : Fin 8) slices_S8x2048x2048_S1x2048x2048_1_0_0 slices_S8x1024x2048_S1x1024x2048_1_0_0 1#32 rfl _ a0
  have a2 := step X MI W WG WD r cc _ (2 : Fin 8) slices_S8x2048x2048_S1x2048x2048_2_0_0 slices_S8x1024x2048_S1x1024x2048_2_0_0 2#32 rfl _ a1
  have a3 := step X MI W WG WD r cc _ (3 : Fin 8) slices_S8x2048x2048_S1x2048x2048_3_0_0 slices_S8x1024x2048_S1x1024x2048_3_0_0 3#32 rfl _ a2
  have a4 := step X MI W WG WD r cc _ (4 : Fin 8) slices_S8x2048x2048_S1x2048x2048_4_0_0 slices_S8x1024x2048_S1x1024x2048_4_0_0 4#32 rfl _ a3
  have a5 := step X MI W WG WD r cc _ (5 : Fin 8) slices_S8x2048x2048_S1x2048x2048_5_0_0 slices_S8x1024x2048_S1x1024x2048_5_0_0 5#32 rfl _ a4
  have a6 := step X MI W WG WD r cc _ (6 : Fin 8) slices_S8x2048x2048_S1x2048x2048_6_0_0 slices_S8x1024x2048_S1x1024x2048_6_0_0 6#32 rfl _ a5
  have a7 := step X MI W WG WD r cc _ (7 : Fin 8) slices_S8x2048x2048_S1x2048x2048_7_0_0 slices_S8x1024x2048_S1x1024x2048_7_0_0 7#32 rfl _ a6
  rw [res_eq_experts, hX, hMI, hW, hWG, hWD]
  refine a7.trans ?_
  rw [Cert.Moe.nest_eight (Ideal.ofBits .f32 0x00000000#32)
    (fun e : Fin 8 => Cert.Moe.term X MI W WG WD e (BitVec.ofNat 32 e.val) r cc), Ideal.ofBits_zero_f32, zero_add]
  rfl

end Cert.ReferenceIdeal.RefValue

end
-- ==== Proof.LibColBroadcast.lean ====
/-
  A COLUMN BROADCAST ACROSS COLUMNS, READ AT AN ELEMENT.

  An array of shape [a, 1] — one number per row — broadcast to shape [a, b] holds, at (p, c), the number of row p,
  whatever the column c.
-/
import Idealize.ShloMosaic.Lib.Pipeline.Value
import Idealize.ShloMosaic.Lib.ValueIdx

noncomputable section

namespace Cert.Lib

open Idealize.ShloMosaic Idealize.ShloMosaic.ValueIdx

/-- A column of a numbers broadcast to an a-by-b array reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibColCast.lean ====
/-
  A VECTOR LAID OUT AS A COLUMN, READ AT AN ELEMENT.

  An array of shape [a] recast to shape [a, 1] — one number per row — holds, at (k, 0), the vector's entry k: both
  positions are the k-th in row-major order.
-/
import Idealize.ShloMosaic.Lib.Pipeline.Value
import Idealize.ShloMosaic.Lib.ValueIdx

noncomputable section

namespace Cert.Lib

open Idealize.ShloMosaic Idealize.ShloMosaic.ValueIdx

/-- An `[a]` array cast to `[a, 1]` reads, at `(k, u)`, the operand at `k`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (k : Fin a) (u : Fin 1) :
    shapeCast ⟨2, ![a, 1]⟩ x h (ix2 k u) = x (ix1 k) :=
  shapeCast_apply x h _ _ (by
    have hu : u.val = 0 := by omega
    rw [Shape.rowMajor_val_two, Shape.rowMajor_val_one]
    show k.val = k.val * 1 + u.val
    rw [hu, Nat.mul_one, Nat.add_zero])

end Cert.Lib

end
-- ==== Proof.LibLaneSums.lean ====
/-
  Lane sums of a matrix read at an element, on the extended reals: a `vector.multi_reduction <add>` of an M-by-N
  matrix along its columns (axis 1) is, at row r, the sum over the N entries of row r; along its rows (axis 0) it is,
  at column k, the sum over the M entries of column k. Also the square root of a vector at an element.
-/
import Idealize.ShloMosaic.PureOps.Ideal.Laws
import Idealize.ShloMosaic.Lib.ValueIdx

noncomputable section

open scoped BigOperators

namespace Cert.Lib

open Idealize.ShloMosaic Idealize.ShloMosaic.ValueIdx

variable {φ : FTy}

/-- Summing each row: at row `r`, the sum of that row's entries. -/
theorem rowSum_apply {M N : Nat} (src : FVec Ideal ⟨2, ![M, N]⟩ φ) (acc : BitVec φ.bits)
    (h : Shape.Reduces ⟨2, ![M, N]⟩ [1] ⟨1, ![M]⟩) (hφ : FKind.Formats φ) (hacc : acc = FKind.add.neutral φ hφ) (r : Fin M) :
    multiReduction .add [1] ⟨1, ![M]⟩ src acc h hφ hacc (ix1 r) = ∑ k : Fin N, src (ix2 r k) :=
  (Ideal.multiReduction_add_single src acc h hφ hacc (ix1 r)).trans
    (Finset.sum_congr rfl fun k _ => congrArg src (funext fun a => Fin.ext (by
      match a with
      | ⟨0, _⟩ => rfl
      | ⟨1, _⟩ => rfl)))

/-- Summing each column: at column `k`, the sum of that column's entries. -/
theorem colSum_apply {M N : Nat} (src : FVec Ideal ⟨2, ![M, N]⟩ φ) (acc : BitVec φ.bits)
    (h : Shape.Reduces ⟨2, ![M, N]⟩ [0] ⟨1, ![N]⟩) (hφ : FKind.Formats φ) (hacc : acc = FKind.add.neutral φ hφ) (k : Fin N) :
    multiReduction .add [0] ⟨1, ![N]⟩ src acc h hφ hacc (ix1 k) = ∑ r : Fin M, src (ix2 r k) :=
  (Ideal.multiReduction_add_single src acc h hφ hacc (ix1 k)).trans
    (Finset.sum_congr rfl fun r _ => congrArg src (funext fun a => Fin.ext (by
      match a with
      | ⟨0, _⟩ => rfl
      | ⟨1, _⟩ => rfl)))

/-- The square root of a vector, at an element. -/
theorem sqrt_apply {s : Shape} (a : FVec Ideal s φ) (i : s.Idx) : sqrt a i = Ideal.sqrt (a i) := rfl

end Cert.Lib

end
-- ==== Proof.KernelPay.lean ====
/-
  ONE GRID POINT'S PARTIAL PRODUCT, AT AN ENTRY. At a grid point the kernel holds a tile of 512 tokens (their rows of x,
  their two expert indices and weights), a [2048, 512] column chunk of one expert's gate matrix and of its up matrix, and
  the matching [512, 2048] row chunk of its down matrix. What it adds to the output tile is, at (p, q),

    Σ_{k < 512} ((g_k · logistic g_k) · u_k · prob) · Wdown[k, q]

  with g_k, u_k the tile row p against column k of the gate / up chunk (sums over the 2048 features) and prob the sum of
  the token's weights whose expert index is the grid point's expert coordinate. Changes of float format are the identity
  on the extended reals, and a product into a zero accumulator is the plain sum.
-/
import proofs.«172396_j13864154432369_1_alg».proof.Proof.Gen.KernelIdeal.Skeleton
import proofs.«172396_j13864154432369_1_alg».proof.Proof.LibRowReads
import proofs.«172396_j13864154432369_1_alg».proof.Proof.LibColBroadcast
import proofs.«172396_j13864154432369_1_alg».proof.Proof.LibColCast
import proofs.«172396_j13864154432369_1_alg».proof.Proof.LibLaneSums
import Idealize.ShloMosaic.Lib.ValueLayout
import Idealize.ShloMosaic.Lib.Pipeline.Value

noncomputable section

open scoped BigOperators

namespace Cert.KernelIdeal.KValue

open Cert.KernelIdeal Cert.KernelIdeal.Gen Idealize.ShloMosaic Idealize.ShloMosaic.ValueIdx

/-- Row p of a token tile against column k of a [1, 2048, 512] weight chunk. -/
def blkProj (x0 : FVec Ideal S512x2048 .bf16) (x3 : FVec Ideal S1x2048x512 .bf16) (p k : Fin 512) : EReal :=
  ∑ d : Fin 2048, x0 (ix2 p d) * x3 (ix3 (0 : Fin 1) d k)

/-- The tile's routing weight of the expert whose index word is `ew`, for the tile's token p. -/
def blkProb (ew : BitVec 32) (x1 : IVec S512x2 32) (x2 : FVec Ideal S512x2 .f32) (p : Fin 512) : EReal :=
  ∑ j : Fin 2, Scalar.select (IntOp.cmpi .eq (x1 (ix2 p j)) ew) (x2 (ix2 p j)) (Ideal.ofBits .f32 0x00000000#32)

theorem blkProj_at (x0 : FVec Ideal S512x2048 .bf16) (x3 : FVec Ideal S1x2048x512 .bf16) (p k : Fin 512) :
    matmul dot_S512x2048_S2048x512_S512x512_1_0_0_1_n_n none (shapeCast S512x2048 x0 shapeCasts_S512x2048_S512x2048)
      (shapeCast S2048x512 x3 shapeCasts_S1x2048x512_S2048x512) (constant (F := Ideal) S512x512 .f32 0x00000000#32) (ix2 p k)
      = blkProj x0 x3 p k := by
  refine (Cert.Lib.matmul_zero_at _ rfl rfl rfl rfl rfl rfl none _ _ p k).trans ?_
  refine Finset.sum_congr rfl fun d _ => congrArg₂ (· * ·) ?_ ?_
  · rw [shapeCast_self]
  · exact shapeCast_1ab_ab_apply x3 _ d k

theorem blkProb_at (ew : BitVec 32) (x1 : IVec S512x2 32) (x2 : FVec Ideal S512x2 .f32) (p k : Fin 512) :
    broadcastTo S512x512 (shapeCast S512x1 (multiReduction (F := Ideal) .add [1] S512
        (select (cmpi .eq (shapeCast S512x2 x1 shapeCasts_S512x2_S512x2) (broadcast S512x2 ew)) x2
          (broadcast S512x2 (Scalar.ofBits (F := Ideal) .f32 0x00000000#32)))
        0x00000000#32 reduces_S512x2_S512 (.inl rfl) rfl) shapeCasts_S512_S512x1) broadcasts_S512x1_S512x512 (ix2 p k)
      = blkProb ew x1 x2 p := by
  refine (Cert.Lib.broadcastTo_a1_ab_apply _ _ p k).trans ?_
  refine (Cert.Lib.shapeCast_a_a1_apply _ _ p (0 : Fin 1)).trans ?_
  refine (Cert.Lib.rowSum_apply _ _ _ _ _ p).trans ?_
  refine Finset.sum_congr rfl fun j _ => ?_
  rw [shapeCast_self]
  rfl

/-- The grid point's partial product at (p, q). -/
theorem pay3_at (i : grid0.Coords) (x1 : IVec S512x2 32) (x2 : FVec Ideal S512x2 .f32) (x0 : FVec Ideal S512x2048 .bf16)
    (x3 x4 : FVec Ideal S1x2048x512 .bf16) (x5 : FVec Ideal S1x512x2048 .bf16) (p : Fin 512) (q : Fin 2048) :
    k0_pay3 (F := Ideal) i x1 x2 x0 x3 x4 x5 (ix2 p q)
      = ∑ k : Fin 512, (((blkProj x0 x3 p k * Ideal.logistic (blkProj x0 x3 p k)) * blkProj x0 x4 p k)
          * blkProb (BitVec.ofNat 32 (i 1).val) x1 x2 p) * x5 (ix3 (0 : Fin 1) k q) := by
  unfold k0_pay3
  dsimp only
  refine (Cert.Lib.matmul_zero_at _ rfl rfl rfl rfl rfl rfl none _ _ p q).trans ?_
  refine Finset.sum_congr rfl fun k _ => congrArg₂ (· * ·) ?_ (shapeCast_1ab_ab_apply x5 _ k q)
  exact congrArg₂ (· * ·) (congrArg₂ (· * ·) (congrArg₂ (fun a b => a * Ideal.logistic b) (blkProj_at x0 x3 p k) (blkProj_at x0 x3 p k))
    (blkProj_at x0 x4 p k)) (blkProb_at _ x1 x2 p k)

end Cert.KernelIdeal.KValue

end
-- ==== Proof.KernelBlocks.lean ====
/-
  WHAT THE KERNEL'S INPUT BLOCKS HOLD. Grid point t = 16·q + 2·e + ic (q < 16 the token tile, e < 8 the expert, ic < 2 the
  chunk of hidden units) stages: rows 512·q … of x, of the masked expert indices and of the weights; from expert e's
  up/gate matrix the column chunk 512·ic … of its gate half (columns 0 … 1023) and of its up half (columns 1024 … 2047);
  and rows 512·ic … of expert e's down matrix. The arrays the region finds are the arguments themselves, up to a change of
  float format (the identity on the extended reals), the two halves being cut out of the up/gate array on the host and
  the indices masked there. So every block entry is an entry of an argument array, named here.
-/
import proofs.«172396_j13864154432369_1_alg».proof.Proof.Gen.KernelIdeal.Frame
import proofs.«172396_j13864154432369_1_alg».proof.Proof.Spec
import proofs.«172396_j13864154432369_1_alg».proof.Proof.Regroup
import Idealize.ShloMosaic.Lib.StableHlo.Run
import Idealize.ShloMosaic.Lib.Pipeline.Value

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ)

/-- The expert indices with a masked token's replaced by -1, as the host part of the kernel's program computes them. -/
def maskedIdx (mask : (⟨S8192, .i1⟩ : BufTy).Contents (Elt Ideal)) (idx : (⟨S8192x2, .i32⟩ : BufTy).Contents (Elt Ideal)) :
    (⟨S8192x2, .i32⟩ : BufTy).Contents (Elt Ideal) :=
  select (broadcastInDim S8192x2 ![0, 1] bcast_S8192x1_S8192x2_0_1 (broadcastInDim S8192x1 ![0] bcast_S8192_S8192x1_0 mask)) idx
    (broadcastInDim S8192x2 ![] bcast_S_S8192x2 (id (constantI S_ 32 4294967295#32)))

/-! ## The arrays the region finds -/

theorem V_x (c : Dev nD) : (V m c main_v2 : S8192x2048.Idx → EReal) = m ((c : Thread nD τ).loc main_arg0) := by
  dsimp only [V]
  simp only [hostOps0, hostOps0_1, hostOps0_2, List.flatten_cons, List.flatten_nil, List.append_nil, List.cons_append, List.nil_append]
  after_results
  rfl

theorem V_idx (c : Dev nD) : (V m c main_v1 : S8192x2.Idx → BitVec 32)
    = maskedIdx (m ((c : Thread nD τ).loc main_arg1)) (m ((c : Thread nD τ).loc main_arg3)) := by
  dsimp only [V]
  simp only [hostOps0, hostOps0_1, hostOps0_2, List.flatten_cons, List.flatten_nil, List.append_nil, List.cons_append, List.nil_append]
  after_results
  rfl

theorem V_gate (c : Dev nD) : (V m c main_v4 : S8x2048x1024.Idx → EReal)
    = extractStridedSlice S8x2048x1024 ![0, 0, 0] (m ((c : Thread nD τ).loc main_arg4)) slices_S8x2048x2048_S8x2048x1024_0_0_0 := by
  dsimp only [V]
  simp only [hostOps0, hostOps0_1, hostOps0_2, List.flatten_cons, List.flatten_nil, List.append_nil, List.cons_append, List.nil_append]
  after_results
  rfl

theorem V_up (c : Dev nD) : (V m c main_v6 : S8x2048x1024.Idx → EReal)
    = extractStridedSlice S8x2048x1024 ![0, 0, 1024] (m ((c : Thread nD τ).loc main_arg4)) slices_S8x2048x2048_S8x2048x1024_0_0_1024 := by
  dsimp only [V]
  simp only [hostOps0, hostOps0_1, hostOps0_2, List.flatten_cons, List.flatten_nil, List.append_nil, List.cons_append, List.nil_append]
  after_results
  rfl

theorem V_down (c : Dev nD) : (V m c main_v7 : S8x1024x2048.Idx → EReal) = m ((c : Thread nD τ).loc main_arg5) := by
  dsimp only [V]
  simp only [hostOps0, hostOps0_1, hostOps0_2, List.flatten_cons, List.flatten_nil, List.append_nil, List.cons_append, List.nil_append]
  after_results
  rfl

/-! ## The index maps, decided once over the 256 grid points -/

theorem idx_facts : ∀ t : Fin cfg0.N,
    win0_0.index t (0 : Fin 2) = t.val / 16 ∧ win0_0.index t (1 : Fin 2) = 0
    ∧ win0_1.index t (0 : Fin 2) = t.val / 16 ∧ win0_1.index t (1 : Fin 2) = 0
    ∧ win0_2.index t (0 : Fin 2) = t.val / 16 ∧ win0_2.index t (1 : Fin 2) = 0
    ∧ win0_3.index t (0 : Fin 3) = t.val / 2 % 8 ∧ win0_3.index t (1 : Fin 3) = 0 ∧ win0_3.index t (2 : Fin 3) = t.val % 2
    ∧ win0_4.index t (0 : Fin 3) = t.val / 2 % 8 ∧ win0_4.index t (1 : Fin 3) = 0 ∧ win0_4.index t (2 : Fin 3) = t.val % 2
    ∧ win0_5.index t (0 : Fin 3) = t.val / 2 % 8 ∧ win0_5.index t (1 : Fin 3) = t.val % 2 ∧ win0_5.index t (2 : Fin 3) = 0
    ∧ ((grid0.coords t) 1).val = t.val / 2 % 8 :=
  (by decide +kernel : ∀ t : Fin grid0.N, _)

/-! ## The blocks -/

/-- Token p of tile q. -/
abbrev row (q : Fin 16) (p : Fin 512) : Fin 8192 := ⟨512 * q.val + p.val, by have := q.isLt; have := p.isLt; omega⟩

section Blocks

variable (c : Dev nD) (t : Fin cfg0.N) (q : Fin 16) (e : Fin 8) (ic : Fin 2)

/-- The tile's rows of x. -/
theorem xblk_at (hq : t.val / 16 = q.val) (p : Fin 512) (d : Fin 2048) :
    iblk m c 0 t (ix2 p d) = m ((c : Thread nD τ).loc main_arg0) (ix2 (row q p) d) := by
  unfold iblk
  show V m c main_v2 (((cfg0.win 0).blk t).view.emb (ix2 p d)) = _
  rw [V_x]
  refine congrArg _ (funext fun a => Fin.ext ?_)
  obtain ⟨e0, e1, -⟩ := idx_facts t
  match a with
  | ⟨0, _⟩ => show win0_0.index t (0 : Fin 2) * 512 + 1 * p.val = 512 * q.val + p.val; omega
  | ⟨1, _⟩ => show win0_0.index t (1 : Fin 2) * 2048 + 1 * d.val = d.val; omega

/-- The tile's masked expert indices. -/
theorem iblk_at (hq : t.val / 16 = q.val) (p : Fin 512) (j : Fin 2) :
    iblk m c 1 t (ix2 p j)
      = maskedIdx (m ((c : Thread nD τ).loc main_arg1)) (m ((c : Thread nD τ).loc main_arg3)) (ix2 (row q p) j) := by
  unfold iblk
  show V m c main_v1 (((cfg0.win 1).blk t).view.emb (ix2 p j)) = _
  rw [V_idx]
  refine congrArg _ (funext fun a => Fin.ext ?_)
  obtain ⟨-, -, e0, e1, -⟩ := idx_facts t
  match a with
  | ⟨0, _⟩ => show win0_1.index t (0 : Fin 2) * 512 + 1 * p.val = 512 * q.val + p.val; omega
  | ⟨1, _⟩ => show win0_1.index t (1 : Fin 2) * 2 + 1 * j.val = j.val; omega

/-- The tile's routing weights. -/
theorem wblk_at (hq : t.val / 16 = q.val) (p : Fin 512) (j : Fin 2) :
    iblk m c 2 t (ix2 p j) = m ((c : Thread nD τ).loc main_arg2) (ix2 (row q p) j) := by
  unfold iblk
  show V m c main_arg2 (((cfg0.win 2).blk t).view.emb (ix2 p j)) = _
  rw [V_main_arg2]
  refine congrArg _ (funext fun a => Fin.ext ?_)
  obtain ⟨-, -, -, -, e0, e1, -⟩ := idx_facts t
  match a with
  | ⟨0, _⟩ => show win0_2.index t (0 : Fin 2) * 512 + 1 * p.val = 512 * q.val + p.val; omega
  | ⟨1, _⟩ => show win0_2.index t (1 : Fin 2) * 2 + 1 * j.val = j.val; omega

/-- Chunk ic of the gate half of expert e's up/gate matrix. -/
theorem gblk_at (he : t.val / 2 % 8 = e.val) (hic : t.val % 2 = ic.val) (d : Fin 2048) (k : Fin 512) :
    iblk m c 3 t (ix3 (0 : Fin 1) d k)
      = m ((c : Thread nD τ).loc main_arg4) (ix3 e d (Cert.Moe.gateCol (Cert.Moe.chunk ic k))) := by
  unfold iblk
  show V m c main_v4 (((cfg0.win 3).blk t).view.emb (ix3 (0 : Fin 1) d k)) = _
  rw [V_gate]
  obtain ⟨-, -, -, -, -, -, e0, e1, e2, -⟩ := idx_facts t
  refine extractStridedSlice_apply (s := S8x2048x2048) (t := S8x2048x1024) ![0, 0, 0] (m ((c : Thread nD τ).loc main_arg4)) slices_S8x2048x2048_S8x2048x1024_0_0_0 _ (ix3 e d (Cert.Moe.gateCol (Cert.Moe.chunk ic k))) fun a => ?_
  match a with
  | ⟨0, _⟩ => show e.val = 0 + (win0_3.index t (0 : Fin 3) * 1 + 1 * 0); omega
  | ⟨1, _⟩ => show d.val = 0 + (win0_3.index t (1 : Fin 3) * 2048 + 1 * d.val); omega
  | ⟨2, _⟩ => show 512 * ic.val + k.val = 0 + (win0_3.index t (2 : Fin 3) * 512 + 1 * k.val); omega

/-- Chunk ic of the up half of expert e's up/gate matrix. -/
theorem ublk_at (he : t.val / 2 % 8 = e.val) (hic : t.val % 2 = ic.val) (d : Fin 2048) (k : Fin 512) :
    iblk m c 4 t (ix3 (0 : Fin 1) d k)
      = m ((c : Thread nD τ).loc main_arg4) (ix3 e d (Cert.Moe.upCol (Cert.Moe.chunk ic k))) := by
  unfold iblk
  show V m c main_v6 (((cfg0.win 4).blk t).view.emb (ix3 (0 : Fin 1) d k)) = _
  rw [V_up]
  obtain ⟨-, -, -, -, -, -, -, -, -, e0, e1, e2, -⟩ := idx_facts t
  refine extractStridedSlice_apply (s := S8x2048x2048) (t := S8x2048x1024) ![0, 0, 1024] (m ((c : Thread nD τ).loc main_arg4)) slices_S8x2048x2048_S8x2048x1024_0_0_1024 _ (ix3 e d (Cert.Moe.upCol (Cert.Moe.chunk ic k))) fun a => ?_
  match a with
  | ⟨0, _⟩ => show e.val = 0 + (win0_4.index t (0 : Fin 3) * 1 + 1 * 0); omega
  | ⟨1, _⟩ => show d.val = 0 + (win0_4.index t (1 : Fin 3) * 2048 + 1 * d.val); omega
  | ⟨2, _⟩ => show 1024 + (512 * ic.val + k.val) = 1024 + (win0_4.index t (2 : Fin 3) * 512 + 1 * k.val); omega

/-- Rows 512·ic … of expert e's down matrix. -/
theorem dblk_at (he : t.val / 2 % 8 = e.val) (hic : t.val % 2 = ic.val) (k : Fin 512) (cc : Fin 2048) :
    iblk m c 5 t (ix3 (0 : Fin 1) k cc) = m ((c : Thread nD τ).loc main_arg5) (ix3 e (Cert.Moe.chunk ic k) cc) := by
  unfold iblk
  show V m c main_v7 (((cfg0.win 5).blk t).view.emb (ix3 (0 : Fin 1) k cc)) = _
  rw [V_down]
  refine congrArg _ (funext fun a => Fin.ext ?_)
  obtain ⟨-, -, -, -, -, -, -, -, -, -, -, -, e0, e1, e2, -⟩ := idx_facts t
  match a with
  | ⟨0, _⟩ => show win0_5.index t (0 : Fin 3) * 1 + 1 * 0 = e.val; omega
  | ⟨1, _⟩ => show win0_5.index t (1 : Fin 3) * 512 + 1 * k.val = 512 * ic.val + k.val; omega
  | ⟨2, _⟩ => show win0_5.index t (2 : Fin 3) * 2048 + 1 * cc.val = cc.val; omega

/-- The grid point's expert coordinate, as the word the kernel compares the indices with. -/
theorem eword_at (he : t.val / 2 % 8 = e.val) : BitVec.ofNat 32 ((grid0.coords t) 1).val = BitVec.ofNat 32 e.val := by
  obtain ⟨-, -, -, -, -, -, -, -, -, -, -, -, -, -, -, e0⟩ := idx_facts t
  rw [e0, he]

end Blocks

end Cert.KernelIdeal.KValue

end
-- ==== Proof.KernelValue.lean ====
/-
  THE KERNEL'S RESULT, AT AN ENTRY. For the token tile q the kernel's output block is reset to zero plus the first grid
  point's partial product and then increased by each of the next fifteen points' partial products; the sixteen points
  are (expert e, chunk ic) in the order 2·e + ic. A point's partial product at (p, c) is the sum, over the 512 hidden
  units of chunk ic, of expert e's weighted hidden activation of token 512·q + p times the down matrix's entry. Summing
  the two chunks gives expert e's whole term, and summing the experts gives the specification's output entry.
-/
import proofs.«172396_j13864154432369_1_alg».proof.Proof.Gen.KernelIdeal.Value
import proofs.«172396_j13864154432369_1_alg».proof.Proof.KernelPay
import proofs.«172396_j13864154432369_1_alg».proof.Proof.KernelBlocks
import proofs.«172396_j13864154432369_1_alg».proof.Proof.Spec
import proofs.«172396_j13864154432369_1_alg».proof.Proof.Regroup
import Idealize.ShloMosaic.PureOps.Ideal.Laws

noncomputable section

open scoped BigOperators

namespace Cert.KernelIdeal.KValue

open Cert.KernelIdeal Cert.KernelIdeal.Gen Cert.KernelIdeal.Value Idealize.ShloMosaic Idealize.ShloMosaic.TcCoe Idealize.SL.Sem
  Idealize.ShloMosaic.ValueIdx
open Cert.Moe (chunk gateCol upCol)

variable (m : (ℓ : Loc nD τ sig) → Buf (Elt Ideal) ℓ)

/-- The specification's output entry of the kernel's arguments. -/
def specOut (c : Dev nD) (r : Fin 8192) (cc : Fin 2048) : EReal :=
  Cert.Moe.out (m ((c : Thread nD τ).loc main_arg0)) (maskedIdx (m ((c : Thread nD τ).loc main_arg1)) (m ((c : Thread nD τ).loc main_arg3))) (m ((c : Thread nD τ).loc main_arg2)) (m ((c : Thread nD τ).loc main_arg4)) (m ((c : Thread nD τ).loc main_arg5)) r cc

/-- A GRID POINT'S PARTIAL PRODUCT at (p, c), for the point of tile q, expert e, chunk ic. -/
theorem point_at (c : Dev nD) (t : Fin cfg0.N) (q : Fin 16) (e : Fin 8) (ic : Fin 2)
    (hq : t.val / 16 = q.val) (he : t.val / 2 % 8 = e.val) (hic : t.val % 2 = ic.val) (p : Fin 512) (cc : Fin 2048) :
    k0_pay3 (F := Ideal) (grid0.coords t) (iblk m c 1 t) (iblk m c 2 t) (iblk m c 0 t) (iblk m c 3 t) (iblk m c 4 t) (iblk m c 5 t) (ix2 p cc)
      = ∑ k : Fin 512, Cert.Moe.hid (m ((c : Thread nD τ).loc main_arg0)) (maskedIdx (m ((c : Thread nD τ).loc main_arg1)) (m ((c : Thread nD τ).loc main_arg3))) (m ((c : Thread nD τ).loc main_arg2)) (m ((c : Thread nD τ).loc main_arg4)) e (BitVec.ofNat 32 e.val) (row q p) (chunk ic k)
          * (m ((c : Thread nD τ).loc main_arg5)) (ix3 e (chunk ic k) cc) := by
  refine (pay3_at (grid0.coords t) (iblk m c 1 t) (iblk m c 2 t) (iblk m c 0 t) (iblk m c 3 t) (iblk m c 4 t) (iblk m c 5 t) p cc).trans ?_
  refine Finset.sum_congr rfl fun k _ => ?_
  have hgp : blkProj (iblk m c 0 t) (iblk m c 3 t) p k = Cert.Moe.proj (m ((c : Thread nD τ).loc main_arg0)) (m ((c : Thread nD τ).loc main_arg4)) e (row q p) (gateCol (chunk ic k)) :=
    Finset.sum_congr rfl fun d _ => congrArg₂ (· * ·) (xblk_at m c t q hq p d) (gblk_at m c t e ic he hic d k)
  have hup : blkProj (iblk m c 0 t) (iblk m c 4 t) p k = Cert.Moe.proj (m ((c : Thread nD τ).loc main_arg0)) (m ((c : Thread nD τ).loc main_arg4)) e (row q p) (upCol (chunk ic k)) :=
    Finset.sum_congr rfl fun d _ => congrArg₂ (· * ·) (xblk_at m c t q hq p d) (ublk_at m c t e ic he hic d k)
  have hpr : blkProb (BitVec.ofNat 32 ((grid0.coords t) 1).val) (iblk m c 1 t) (iblk m c 2 t) p
      = Cert.Moe.prob (maskedIdx (m ((c : Thread nD τ).loc main_arg1)) (m ((c : Thread nD τ).loc main_arg3))) (m ((c : Thread nD τ).loc main_arg2)) (BitVec.ofNat 32 e.val) (row q p) := by
    unfold blkProb Cert.Moe.prob
    rw [eword_at t e he]
    exact Finset.sum_congr rfl fun j _ => by rw [iblk_at m c t q hq p j, wblk_at m c t q hq p j]
  rw [hgp, hup, hpr, dblk_at m c t e ic he hic k cc]
  rfl

/-- Point n's addend to its tile's output block (zero past the grid, where it is never used). -/
def addend (c : Dev nD) (n : ℕ) : Vec Ideal S512x2048 .f32 := fun y =>
  if h : n < cfg0.N then k0_pay3 (F := Ideal) (grid0.coords ⟨n, h⟩) (iblk m c 1 ⟨n, h⟩) (iblk m c 2 ⟨n, h⟩) (iblk m c 0 ⟨n, h⟩) (iblk m c 3 ⟨n, h⟩) (iblk m c 4 ⟨n, h⟩) (iblk m c 5 ⟨n, h⟩) y else 0

theorem reset_eq (c : Dev nD) (b : ℕ) (h : b < cfg0.N) (y : S512x2048.Idx) :
    reset6 m c b h y = k0_pay2 (F := Ideal) y + addend m c b y := by
  unfold reset6 addend k0_pay1
  rw [dif_pos h, shapeCast_self]
  rfl

theorem step_eq (c : Dev nD) (n : ℕ) (h : n < cfg0.N) (acc : Vec Ideal S512x2048 .f32) (y : S512x2048.Idx) :
    step6 m c n h acc y = acc y + addend m c n y := by
  unfold step6 addend k0_pay1
  rw [dif_pos h, shapeCast_self]
  rfl

/-- THE FOLD of tile q's sixteen points, at (p, c): the specification's output entry of token 512·q + p. -/
theorem fold_at (c : Dev nD) (b : ℕ) (h : b + 15 < cfg0.N) (q : Fin 16) (hb : b = 16 * q.val) (p : Fin 512) (cc : Fin 2048) :
    Pipeline.accAt (reset6 m c) (step6 m c) b 15 h (ix2 p cc) = specOut m c (row q p) cc := by
  have hN : cfg0.N = 256 := N_0
  rw [Pipeline.accAt_add_apply (reset6 m c) (step6 m c) (k0_pay2 (F := Ideal)) (addend m c) b 15
    (fun hb' y => reset_eq m c b hb' y) (fun n hn acc y _ _ => step_eq m c n hn acc y) 15 (le_refl _) h (ix2 p cc)]
  rw [show k0_pay2 (F := Ideal) (ix2 p cc) = 0 from Ideal.ofBits_zero_f32, zero_add,
    Cert.Moe.sum_sixteen (fun s => addend m c (b + s) (ix2 p cc))]
  unfold specOut Cert.Moe.out
  refine Finset.sum_congr rfl fun e _ => ?_
  unfold Cert.Moe.term
  rw [← Cert.Moe.sum_two_chunks (fun k => Cert.Moe.hid (m ((c : Thread nD τ).loc main_arg0)) (maskedIdx (m ((c : Thread nD τ).loc main_arg1)) (m ((c : Thread nD τ).loc main_arg3))) (m ((c : Thread nD τ).loc main_arg2)) (m ((c : Thread nD τ).loc main_arg4)) e (BitVec.ofNat 32 e.val) (row q p) k
      * (m ((c : Thread nD τ).loc main_arg5)) (ix3 e k cc))]
  refine Finset.sum_congr rfl fun ic _ => ?_
  have he8 := e.isLt
  have hic2 := ic.isLt
  have hq16 := q.isLt
  have hlt : b + (2 * e.val + ic.val) < cfg0.N := by omega
  unfold addend
  rw [dif_pos hlt]
  exact point_at m c ⟨b + (2 * e.val + ic.val), hlt⟩ q e ic (by show (b + (2 * e.val + ic.val)) / 16 = q.val; omega)
    (by show (b + (2 * e.val + ic.val)) / 2 % 8 = e.val; omega) (by show (b + (2 * e.val + ic.val)) % 2 = ic.val; omega) p cc

/-- THE KERNEL'S RESULT ARRAY at (r, c) is the specification's output entry of its arguments. -/
theorem G6_at (c : Dev nD) (r : Fin 8192) (cc : Fin 2048) : G6 (F := Ideal) m c (ix2 r cc) = specOut m c r cc := by
  have hN : cfg0.N = 256 := N_0
  have hr := r.isLt
  have hc := cc.isLt
  have hrun : run6Of (ix2 r cc) = r.val / 512 := by
    show 1 * (r.val / 512 - 0) + 1 * (cc.val / 2048 - 0) = r.val / 512
    omega
  have hlt : 16 * run6Of (ix2 r cc) + 15 < cfg0.N := by rw [hrun]; omega
  unfold G6
  rw [dif_pos hlt]
  have hloc : loc6Of (ix2 r cc) = ix2 (⟨r.val % 512, by omega⟩ : Fin 512) cc :=
    funext fun a => Fin.ext (by
      match a with
      | ⟨0, _⟩ => rfl
      | ⟨1, _⟩ => show cc.val % 2048 = cc.val; omega)
  rw [hloc, fold_at m c (16 * run6Of (ix2 r cc)) hlt ⟨r.val / 512, by omega⟩ (by rw [hrun]) ⟨r.val % 512, by omega⟩ cc]
  exact congrArg (fun r' => specOut m c r' cc) (Fin.ext (by show 512 * (r.val / 512) + r.val % 512 = r.val; omega))

end Cert.KernelIdeal.KValue

end
-- ==== Proof.lean ====
/-
  A mixture-of-experts layer over 8192 tokens and 8 experts, as a tiled kernel and as a loop over the experts.

  Every token carries two (expert index, routing weight) pairs; a masked token's indices are first replaced by -1, so it
  reaches no expert. Expert e multiplies a token's features x[r, ·] by its up/gate matrix, gates the first 1024 columns
  (g · logistic g) against the last 1024 (u), scales by the token's routing weight for e (the sum of its weights whose
  index is e), and multiplies by its down matrix; the output row is the sum over the experts:

      out[r, c] = Σ_{e < 8} Σ_{k < 1024} ((g_k · logistic g_k) · u_k · prob_e(r)) · Wd[e, k, c].

  The reference computes each expert's product whole, with 1 / (1 + exp (−g)) for the logistic function, and adds the
  eight products one after the other onto zeros. The kernel walks a grid of (token tile, expert, half of the hidden
  units): at the first point of a token tile it resets the tile's output block to zero, and at each of the sixteen points
  it adds the partial product over that point's 512 hidden units, its matrix operands first cast to a shorter float
  format. On the extended reals a change of float format is the identity, a matrix product into zeros is a plain sum,
  and the two programs differ only in how one sum over (expert, hidden unit) is grouped: addition of extended reals is
  associative and commutative, so the results agree entry by entry, for every input (finiteness is not needed).

  The kernel's result array as the fold over each token tile's sixteen points is the generated value leg; the reference's
  run is the generated run; the ideal pass rewrote nothing, so the preservation claim is trivial.
-/
import proofs.«172396_j13864154432369_1_alg».proof.Defs
import proofs.«172396_j13864154432369_1_alg».proof.Proof.Gen.Kernel.Frame
import proofs.«172396_j13864154432369_1_alg».proof.Proof.Gen.KernelIdeal.Value
import proofs.«172396_j13864154432369_1_alg».proof.Proof.Gen.Pre_finite_inputs
import proofs.«172396_j13864154432369_1_alg».proof.Proof.RefRunP
import proofs.«172396_j13864154432369_1_alg».proof.Proof.RefValue
import proofs.«172396_j13864154432369_1_alg».proof.Proof.KernelValue
import Idealize.ShloMosaic.Adequacy
import Idealize.ShloMosaic.Init

noncomputable section

namespace Cert.Proof

open Idealize.ShloMosaic Idealize.SL.Sem Idealize.ShloMosaic.ValueIdx

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.RunP.run (F := Ideal) m ρ)

/-- Both programs end with the specification's output of arguments that agree: the reference by its eight products
    read expert by expert, the kernel by the fold of each token tile's sixteen points regrouped. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.RunP.run (F := Ideal) m' ρ')
  rw [(h c).1]
  funext i
  obtain ⟨r, cc, rfl⟩ : ∃ (r : Fin 8192) (cc : Fin 2048), i = ix2 r cc := ⟨i 0, i 1, eq_ix2 i⟩
  refine (Cert.ReferenceIdeal.RefValue.res_at m' c r cc).trans ?_
  rw [(hagree c).1, (hagree c).2.1, (hagree c).2.2.1, (hagree c).2.2.2.1, (hagree c).2.2.2.2.1, (hagree c).2.2.2.2.2]
  exact (Cert.KernelIdeal.KValue.G6_at m c r cc).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
